-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x18 : Shape := ⟨2, ![131072, 18]⟩
abbrev S153902x64 : Shape := ⟨2, ![153902, 64]⟩
abbrev S153902x1 : Shape := ⟨2, ![153902, 1]⟩
abbrev S1088x256 : Shape := ⟨2, ![1088, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S153902x64 : S_.BroadcastsInDim S153902x64 (![] : Fin 0 → Fin S153902x64.rank)
  reducesTo_S153902x64_S_d0_1 : S153902x64.ReducesTo [0, 1] S_
  h_S_ : 0 < S_.numel
  bcast_S_S153902x1 : S_.BroadcastsInDim S153902x1 (![] : Fin 0 → Fin S153902x1.rank)
  reducesTo_S153902x1_S_d0_1 : S153902x1.ReducesTo [0, 1] S_
  bcast_S_S1088x256 : S_.BroadcastsInDim S1088x256 (![] : Fin 0 → Fin S1088x256.rank)
  reducesTo_S1088x256_S_d0_1 : S1088x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128 .f32) (main_arg9 : FVec F S128x1 .f32) (main_arg10 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg9
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S256x256 .f32) (main_arg6 : FVec F S256 .f32) (main_arg7 : FVec F S256x128 .f32) (main_arg8 : FVec F S128 .f32) (main_arg9 : FVec F S128x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : IVec S131072x18 32) (main_arg1 : FVec F S153902x64 .f32) (main_arg2 : FVec F S153902x1 .f32) (main_arg3 : FVec F S1088x256 .f32) (main_arg4 : FVec F S256 .f32) (main_arg5 : FVec F S256x256 .f32) (main_arg6 : FVec F S256 .f32) (main_arg7 : FVec F S256x128 .f32) (main_arg8 : FVec F S128 .f32) (main_arg9 : FVec F S128x1 .f32) (main_arg10 : FVec F S1 .f32) : IVec S_ 1 :=
  let main_v0 : FVec F S153902x64 .f32 := Host.absf main_arg1
  let main_cst : FVec F S_ .f32 := constant S_ .f32 0x7F800000#32
  let main_v1 : FVec F S153902x64 .f32 := broadcastInDim S153902x64 ![] bcast_S_S153902x64 main_cst
  let main_v2 : IVec S153902x64 1 := cmpf .olt main_v0 main_v1
  let main_c : IVec S_ 1 := constantI S_ 1 1#1
  let main_v3 : IVec S_ 1 := (fun x v => Host.reduce IntOp.andi x v reducesTo_S153902x64_S_d0_1 h_S_) main_v2 main_c
  let main_v4 : FVec F S153902x1 .f32 := Host.absf main_arg2
  let main_cst_0 : FVec F S_ .f32 := constant S_ .f32 0x7F800000#32
  let main_v5 : FVec F S153902x1 .f32 := broadcastInDim S153902x1 ![] bcast_S_S153902x1 main_cst_0
  let main_v6 : IVec S153902x1 1 := cmpf .olt main_v4 main_v5
  let main_c_1 : IVec S_ 1 := constantI S_ 1 1#1
  let main_v7 : IVec S_ 1 := (fun x v => Host.reduce IntOp.andi x v reducesTo_S153902x1_S_d0_1 h_S_) main_v6 main_c_1
  let main_v8 : IVec S_ 1 := andi main_v3 main_v7
  let main_v9 : FVec F S1088x256 .f32 := Host.absf main_arg3
  let main_cst_2 : FVec F S_ .f32 := constant S_ .f32 0x7F800000#32
  let main_v10 : FVec F S1088x256 .f32 := broadcastInDim S1088x256 ![] bcast_S_S1088x256 main_cst_2
  let main_v11 : IVec S1088x256 1 := cmpf .olt main_v9 main_v10
  let main_c_3 : IVec S_ 1 := constantI S_ 1 1#1
  let main_v12 : IVec S_ 1 := (fun x v => Host.reduce IntOp.andi x v reducesTo_S1088x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S131072x18 : Shape := ⟨2, ![131072, 18]⟩
abbrev S153902x64 : Shape := ⟨2, ![153902, 64]⟩
abbrev S153902x1 : Shape := ⟨2, ![153902, 1]⟩
abbrev S1088x256 : Shape := ⟨2, ![1088, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S17 : Shape := ⟨1, ![17]⟩
abbrev S_ : Shape := ⟨0, ![]⟩
abbrev S17x1 : Shape := ⟨2, ![17, 1]⟩
abbrev S131072x17 : Shape := ⟨2, ![131072, 17]⟩
abbrev S1x17 : Shape := ⟨2, ![1, 17]⟩
abbrev S131072x17x1 : Shape := ⟨3, ![131072, 17, 1]⟩
abbrev S131072x17x64 : Shape := ⟨3, ![131072, 17, 64]⟩
abbrev S131072x1088 : Shape := ⟨2, ![131072, 1088]⟩
abbrev S131072 : Shape := ⟨1, ![131072]⟩
abbrev S131072x1 : Shape := ⟨2, ![131072, 1]⟩
abbrev S64x64 : Shape := ⟨2, ![64, 64]⟩
abbrev S1x64x1x64 : Shape := ⟨4, ![1, 64, 1, 64]⟩
abbrev S17x64x1x64 : Shape := ⟨4, ![17, 64, 1, 64]⟩
abbrev S1088x64 : Shape := ⟨2, ![1088, 64]⟩
abbrev S1x256 : Shape := ⟨2, ![1, 256]⟩
abbrev S1x128 : Shape := ⟨2, ![1, 128]⟩
abbrev S1x1 : Shape := ⟨2, ![1, 1]⟩
abbrev S2048x1088 : Shape := ⟨2, ![2048, 1088]⟩
abbrev S2048x1 : Shape := ⟨2, ![2048, 1]⟩
abbrev S2048x64 : Shape := ⟨2, ![2048, 64]⟩
abbrev S2048 : Shape := ⟨1, ![2048]⟩
abbrev S2048x256 : Shape := ⟨2, ![2048, 256]⟩
abbrev S2048x128 : Shape := ⟨2, ![2048, 128]⟩

abbrev nBuf : Space → Nat
  | .hbm => 66
  | .vmem => 15
  | .smem => 0
  | _ => 0

abbrev bufTy : (tb : Table) → Fin (tcTables nBuf tb) → BufTy
  | .hbm, ⟨0, _⟩ => ⟨S131072x18, .i32⟩
  | .hbm, ⟨1, _⟩ => ⟨S153902x64, .f32⟩
  | .hbm, ⟨2, _⟩ => ⟨S153902x1, .f32⟩
  | .hbm, ⟨3, _⟩ => ⟨S1088x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S17, .i32⟩
  | .hbm, ⟨12, _⟩ => ⟨S17, .i1⟩
  | .hbm, ⟨13, _⟩ => ⟨S17, .i32⟩
  | .hbm, ⟨14, _⟩ => ⟨S_, .i32⟩
  | .hbm, ⟨15, _⟩ => ⟨S17, .i32⟩
  | .hbm, ⟨16, _⟩ => ⟨S17, .i32⟩
  | .hbm, ⟨17, _⟩ => ⟨S17, .i32⟩
  | .hbm, ⟨18, _⟩ => ⟨S17x1, .i32⟩
  | .hbm, ⟨19, _⟩ => ⟨S131072x17, .i32⟩
  | .hbm, ⟨20, _⟩ => ⟨S1x17, .i32⟩
  | .hbm, ⟨21, _⟩ => ⟨S131072x17, .i32⟩
  | .hbm, ⟨22, _⟩ => ⟨S131072x17, .i32⟩
  | .hbm, ⟨23, _⟩ => ⟨S_, .i32⟩
  | .hbm, ⟨24, _⟩ => ⟨S131072x17, .i32⟩
  | .hbm, ⟨25, _⟩ => ⟨S131072x17, .i1⟩
  | .hbm, ⟨26, _⟩ => ⟨S_, .i32⟩
  | .hbm, ⟨27, _⟩ => ⟨S131072x17, .i32⟩
  | .hbm, ⟨28, _⟩ => ⟨S131072x17, .i32⟩
  | .hbm, ⟨29, _⟩ => ⟨S131072x17, .i32⟩
  | .hbm, ⟨30, _⟩ => ⟨S131072x17x1, .i32⟩
  | .hbm, ⟨31, _⟩ => ⟨S131072x17x64, .f32⟩
  | .hbm, ⟨32, _⟩ => ⟨S131072x17x64, .bf16⟩
  | .hbm, ⟨33, _⟩ => ⟨S131072x1088, .bf16⟩
  | .hbm, ⟨34, _⟩ => ⟨S_, .i32⟩
  | .hbm, ⟨35, _⟩ => ⟨S131072x17, .i32⟩
  | .hbm, ⟨36, _⟩ => ⟨S131072x17, .i1⟩
  | .hbm, ⟨37, _⟩ => ⟨S_, .i32⟩
  | .hbm, ⟨38, _⟩ => ⟨S131072x17, .i32⟩
  | .hbm, ⟨39, _⟩ => ⟨S131072x17, .i32⟩
  | .hbm, ⟨40, _⟩ => ⟨S131072x17, .i32⟩
  | .hbm, ⟨41, _⟩ => ⟨S131072x17x1, .i32⟩
  | .hbm, ⟨42, _⟩ => ⟨S131072x17x1, .f32⟩
  | .hbm, ⟨43, _⟩ => ⟨S131072x17, .f32⟩
  | .hbm, ⟨44, _⟩ => ⟨S_, .f32⟩
  | .hbm, ⟨45, _⟩ => ⟨S131072, .f32⟩
  | .hbm, ⟨46, _⟩ => ⟨S131072x1, .f32⟩
  | .hbm, ⟨47, _⟩ => ⟨S64x64, .i32⟩
  | .hbm, ⟨48, _⟩ => ⟨S64x64, .i32⟩
  | .hbm, ⟨49, _⟩ => ⟨S_, .i32⟩
  | .hbm, ⟨50, _⟩ => ⟨S64x64, .i32⟩
  | .hbm, ⟨51, _⟩ => ⟨S64x64, .i32⟩
  | .hbm, ⟨52, _⟩ => ⟨S64x64, .i1⟩
  | .hbm, ⟨53, _⟩ => ⟨S64x64, .bf16⟩
  | .hbm, ⟨54, _⟩ => ⟨S1x64x1x64, .bf16⟩
  | .hbm, ⟨55, _⟩ => ⟨S17x64x1x64, .bf16⟩
  | .hbm, ⟨56, _⟩ => ⟨S1088x64, .bf16⟩
  | .hbm, ⟨57, _⟩ => ⟨S1088x256, .bf16⟩
  | .hbm, ⟨58, _⟩ => ⟨S1x256, .f32⟩
  | .hbm, ⟨59, _⟩ => ⟨S256x256, .bf16⟩
  | .hbm, ⟨60, _⟩ => ⟨S1x256, .f32⟩
  | .hbm, ⟨61, _⟩ => ⟨S256x128, .bf16⟩
  | .hbm, ⟨62, _⟩ => ⟨S1x128, .f32⟩
  | .hbm, ⟨63, _⟩ => ⟨S128x1, .bf16⟩
  | .hbm, ⟨64, _⟩ => ⟨S1x1, .f32⟩
  | .hbm, ⟨65, _⟩ => ⟨S131072x1, .f32⟩
  | .local _ .vmem, ⟨0, _⟩ => ⟨S2048x1088, .bf16⟩
  | .local _ .vmem, ⟨1, _⟩ => ⟨S2048x1088, .bf16⟩
  | .local _ .vmem, ⟨2, _⟩ => ⟨S2048x1, .f32⟩
  | .local _ .vmem, ⟨3, _⟩ => ⟨S2048x1, .f32⟩
  | .local _ .vmem, ⟨4, _⟩ => ⟨S1088x64, .bf16⟩
  | .local _ .vmem, ⟨5, _⟩ => ⟨S1088x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S256x128, .bf16⟩
  | .local _ .vmem, ⟨10, _⟩ => ⟨S1x128, .f32⟩
  | .local _ .vmem, ⟨11, _⟩ => ⟨S128x1, .bf16⟩
  | .local _ .vmem, ⟨12, _⟩ => ⟨S1x1, .f32⟩
  | .local _ .vmem, ⟨13, _⟩ => ⟨S2048x1, .f32⟩
  | .local _ .vmem, ⟨14, _⟩ => ⟨S2048x1, .f32⟩
  | _, _ => ⟨S131072x18, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1088x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1088x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S17 : S_.BroadcastsInDim S17 (![] : Fin 0 → Fin S17.rank)
  bcast_S17_S17x1_0 : S17.BroadcastsInDim S17x1 (![0] : Fin 1 → Fin S17x1.rank)
  bcast_S17_S1x17_1 : S17.BroadcastsInDim S1x17 (![1] : Fin 1 → Fin S1x17.rank)
  bcast_S1x17_S131072x17_0_1 : S1x17.BroadcastsInDim S131072x17 (![0, 1] : Fin 2 → Fin S131072x17.rank)
  bcast_S_S131072x17 : S_.BroadcastsInDim S131072x17 (![] : Fin 0 → Fin S131072x17.rank)
  bcast_S131072x17_S131072x17x1_0_1 : S131072x17.BroadcastsInDim S131072x17x1 (![0, 1] : Fin 2 → Fin S131072x17x1.rank)
  bitsLt_bf16_f32 : FTy.bits .bf16 < FTy.bits .f32
  shapeCasts_S131072x17x64_S131072x1088 : S131072x17x64.ShapeCasts S131072x1088
  shapeCasts_S131072x17x1_S131072x17 : S131072x17x1.ShapeCasts S131072x17
  reducesTo_S131072x17_S131072_d1 : S131072x17.ReducesTo [1] S131072
  h_S_ : 0 < S_.numel
  bcast_S131072_S131072x1_0 : S131072.BroadcastsInDim S131072x1 (![0] : Fin 1 → Fin S131072x1.rank)
  bcast_S_S64x64 : S_.BroadcastsInDim S64x64 (![] : Fin 0 → Fin S64x64.rank)
  shapeCasts_S64x64_S1x64x1x64 : S64x64.ShapeCasts S1x64x1x64
  bcast_S1x64x1x64_S17x64x1x64_0_1_2_3 : S1x64x1x64.BroadcastsInDim S17x64x1x64 (![0, 1, 2, 3] : Fin 4 → Fin S17x64x1x64.rank)
  shapeCasts_S17x64x1x64_S1088x64 : S17x64x1x64.ShapeCasts S1088x64
  shapeCasts_S256_S1x256 : S256.ShapeCasts S1x256
  shapeCasts_S128_S1x128 : S128.ShapeCasts S1x128
  shapeCasts_S1_S1x1 : S1.ShapeCasts S1x1
  inb_S2048x1088_S2048x1088_0_0 : ∀ a, (![0, 0] : Fin 2 → Nat) a + S2048x1088.size a ≤ S2048x1088.size a
  h_S2048x1088 : 0 < S2048x1088.numel
  shapeCasts_S2048x1088_S2048x1088 : S2048x1088.ShapeCasts S2048x1088
  inb_S1088x64_S1088x64_0_0 : ∀ a, (![0, 0] : Fin 2 → Nat) a + S1088x64.size a ≤ S1088x64.size a
  h_S1088x64 : 0 < S1088x64.numel
  shapeCasts_S1088x64_S1088x64 : S1088x64.ShapeCasts S1088x64
  reduces_S2048x64_S2048 : S2048x64.Reduces [1] S2048
  shapeCasts_S2048_S2048x1 : S2048.ShapeCasts S2048x1
  inb_S1088x256_S1088x256_0_0 : ∀ a, (![0, 0] : Fin 2 → Nat) a + S1088x256.size a ≤ S1088x256.size a
  h_S1088x256 : 0 < S1088x256.numel
  shapeCasts_S1088x256_S1088x256 : S1088x256.ShapeCasts S1088x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  gather_S131072x18_S17x1_S131072x17_0_1_n_n_1_1_1310721_wf : GatherDims.WF S131072x18 S17x1 S131072x17 [0] [1] [] [1] [] 1 ![131072, 1]
  gather_S153902x64_S131072x17x1_S131072x17x64_2_0_n_n_0_2_164_wf : GatherDims.WF S153902x64 S131072x17x1 S131072x17x64 [2] [0] [] [0] [] 2 ![1, 64]
  gather_S153902x1_S131072x17x1_S131072x17x1_2_0_n_n_0_2_11_wf : GatherDims.WF S153902x1 S131072x17x1 S131072x17x1 [2] [0] [] [0] [] 2 ![1, 1]
  dot_S2048x1088_S1088x64_S2048x64_1_0_0_1_n_n_wf : DotDims.WF S2048x1088 S1088x64 S2048x64 [1] [0] [0] [1] [] []
  dot_S2048x1088_S1088x256_S2048x256_1_0_0_1_n_n_wf : DotDims.WF S2048x1088 S1088x256 S2048x256 [1] [0] [0] [1] [] []
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1088.size a ≤ S131072x1088.size a
  hwx0_0 : ∀ i : grid0.Coords, EltTy.bits .bf16 = 32 ∨ (Rect.block (s := S131072x1088) S2048x1088.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1088x64.size a ≤ S1088x64.size a
  hwx0_2 : ∀ i : grid0.Coords, EltTy.bits .bf16 = 32 ∨ (Rect.block (s := S1088x64) S1088x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1088x256.size a ≤ S1088x256.size a
  hwx0_3 : ∀ i : grid0.Coords, EltTy.bits .bf16 = 32 ∨ (Rect.block (s := S1088x256) S1088x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .bf16 = 32 ∨ (Rect.block (s := S128x1) S128x1.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S131072x1.size a
  hwx0_11 : ∀ i : grid0.Coords, EltTy.bits .f32 = 32 ∨ (Rect.block (s := S131072x1) S2048x1.size (cc0_transform_11 i) (hinb0_11 i)).WholeWords (EltTy.packing .f32)

variable [Facts₀]

def gather_S131072x18_S17x1_S131072x17_0_1_n_n_1_1_1310721 : GatherDims S131072x18 S17x1 S131072x17 where
  offsetDims := [0]
  collapsedSliceDims := [1]
  operandBatchingDims := []
  startIndicesBatchingDims := []
  startIndexMap := [1]
  indexVectorDim := 1
  sliceSizes := ![131072, 1]
  wf := gather_S131072x18_S17x1_S131072x17_0_1_n_n_1_1_1310721_wf
def gather_S153902x64_S131072x17x1_S131072x17x64_2_0_n_n_0_2_164 : GatherDims S153902x64 S131072x17x1 S131072x17x64 where
  offsetDims := [2]
  collapsedSliceDims := [0]
  operandBatchingDims := []
  startIndicesBatchingDims := []
  startIndexMap := [0]
  indexVectorDim := 2
  sliceSizes := ![1, 64]
  wf := gather_S153902x64_S131072x17x1_S131072x17x64_2_0_n_n_0_2_164_wf
def gather_S153902x1_S131072x17x1_S131072x17x1_2_0_n_n_0_2_11 : GatherDims S153902x1 S131072x17x1 S131072x17x1 where
  offsetDims := [2]
  collapsedSliceDims := [0]
  operandBatchingDims := []
  startIndicesBatchingDims := []
  startIndexMap := [0]
  indexVectorDim := 2
  sliceSizes := ![1, 1]
  wf := gather_S153902x1_S131072x17x1_S131072x17x1_2_0_n_n_0_2_11_wf
def dot_S2048x1088_S1088x64_S2048x64_1_0_0_1_n_n : DotDims S2048x1088 S1088x64 S2048x64 where
  lhsContracting := [1]
  rhsContracting := [0]
  lhsNonContracting := [0]
  rhsNonContracting := [1]
  lhsBatch := []
  rhsBatch := []
  wf := dot_S2048x1088_S1088x64_S2048x64_1_0_0_1_n_n_wf
def dot_S2048x1088_S1088x256_S2048x256_1_0_0_1_n_n : DotDims S2048x1088 S1088x256 S2048x256 where
  lhsContracting := [1]
  rhsContracting := [0]
  lhsNonContracting := [0]
  rhsNonContracting := [1]
  lhsBatch := []
  rhsBatch := []
  wf := dot_S2048x1088_S1088x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v16) S2048x1088.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S1088x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1088x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v39) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v44) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x18 : Shape := ⟨2, ![131072, 18]⟩
abbrev S153902x64 : Shape := ⟨2, ![153902, 64]⟩
abbrev S153902x1 : Shape := ⟨2, ![153902, 1]⟩
abbrev S1088x256 : Shape := ⟨2, ![1088, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S17 : Shape := ⟨1, ![17]⟩
abbrev S_ : Shape := ⟨0, ![]⟩
abbrev S17x1 : Shape := ⟨2, ![17, 1]⟩
abbrev S131072x17 : Shape := ⟨2, ![131072, 17]⟩
abbrev S1x17 : Shape := ⟨2, ![1, 17]⟩
abbrev S131072x17x1 : Shape := ⟨3, ![131072, 17, 1]⟩
abbrev S131072x17x64 : Shape := ⟨3, ![131072, 17, 64]⟩
abbrev S131072 : Shape := ⟨1, ![131072]⟩
abbrev S131072x1 : Shape := ⟨2, ![131072, 1]⟩
abbrev S131072x64 : Shape := ⟨2, ![131072, 64]⟩
abbrev S131072x1088 : Shape := ⟨2, ![131072, 1088]⟩
abbrev S131072x256 : Shape := ⟨2, ![131072, 256]⟩
abbrev S1x256 : Shape := ⟨2, ![1, 256]⟩
abbrev S131072x128 : Shape := ⟨2, ![131072, 128]⟩
abbrev S1x128 : Shape := ⟨2, ![1, 128]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S131072x18, .i32⟩
  | .hbm, ⟨1, _⟩ => ⟨S153902x64, .f32⟩
  | .hbm, ⟨2, _⟩ => ⟨S153902x1, .f32⟩
  | .hbm, ⟨3, _⟩ => ⟨S1088x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S17, .i32⟩
  | .hbm, ⟨12, _⟩ => ⟨S17, .i32⟩
  | .hbm, ⟨13, _⟩ => ⟨S_, .i32⟩
  | .hbm, ⟨14, _⟩ => ⟨S17, .i32⟩
  | .hbm, ⟨15, _⟩ => ⟨S17, .i1⟩
  | .hbm, ⟨16, _⟩ => ⟨S_, .i32⟩
  | .hbm, ⟨17, _⟩ => ⟨S17, .i32⟩
  | .hbm, ⟨18, _⟩ => ⟨S17, .i32⟩
  | .hbm, ⟨19, _⟩ => ⟨S17, .i32⟩
  | .hbm, ⟨20, _⟩ => ⟨S17x1, .i32⟩
  | .hbm, ⟨21, _⟩ => ⟨S131072x17, .i32⟩
  | .hbm, ⟨22, _⟩ => ⟨S1x17, .i32⟩
  | .hbm, ⟨23, _⟩ => ⟨S131072x17, .i32⟩
  | .hbm, ⟨24, _⟩ => ⟨S131072x17, .i32⟩
  | .hbm, ⟨25, _⟩ => ⟨S_, .i32⟩
  | .hbm, ⟨26, _⟩ => ⟨S131072x17, .i32⟩
  | .hbm, ⟨27, _⟩ => ⟨S131072x17, .i1⟩
  | .hbm, ⟨28, _⟩ => ⟨S_, .i32⟩
  | .hbm, ⟨29, _⟩ => ⟨S131072x17, .i32⟩
  | .hbm, ⟨30, _⟩ => ⟨S131072x17, .i32⟩
  | .hbm, ⟨31, _⟩ => ⟨S131072x17, .i32⟩
  | .hbm, ⟨32, _⟩ => ⟨S131072x17x1, .i32⟩
  | .hbm, ⟨33, _⟩ => ⟨S131072x17x64, .f32⟩
  | .hbm, ⟨34, _⟩ => ⟨S_, .i32⟩
  | .hbm, ⟨35, _⟩ => ⟨S131072x17, .i32⟩
  | .hbm, ⟨36, _⟩ => ⟨S131072x17, .i1⟩
  | .hbm, ⟨37, _⟩ => ⟨S_, .i32⟩
  | .hbm, ⟨38, _⟩ => ⟨S131072x17, .i32⟩
  | .hbm, ⟨39, _⟩ => ⟨S131072x17, .i32⟩
  | .hbm, ⟨40, _⟩ => ⟨S131072x17, .i32⟩
  | .hbm, ⟨41, _⟩ => ⟨S131072x17x1, .i32⟩
  | .hbm, ⟨42, _⟩ => ⟨S131072x17x1, .f32⟩
  | .hbm, ⟨43, _⟩ => ⟨S131072x17, .f32⟩
  | .hbm, ⟨44, _⟩ => ⟨S_, .f32⟩
  | .hbm, ⟨45, _⟩ => ⟨S131072, .f32⟩
  | .hbm, ⟨46, _⟩ => ⟨S131072x1, .f32⟩
  | .hbm, ⟨47, _⟩ => ⟨S_, .f32⟩
  | .hbm, ⟨48, _⟩ => ⟨S131072x64, .f32⟩
  | .hbm, ⟨49, _⟩ => ⟨S131072x17x64, .f32⟩
  | .hbm, ⟨50, _⟩ => ⟨S_, .f32⟩
  | .hbm, ⟨51, _⟩ => ⟨S131072x64, .f32⟩
  | .hbm, ⟨52, _⟩ => ⟨S131072x64, .f32⟩
  | .hbm, ⟨53, _⟩ => ⟨S131072x64, .f32⟩
  | .hbm, ⟨54, _⟩ => ⟨S_, .f32⟩
  | .hbm, ⟨55, _⟩ => ⟨S131072, .f32⟩
  | .hbm, ⟨56, _⟩ => ⟨S131072x1, .f32⟩
  | .hbm, ⟨57, _⟩ => ⟨S_, .f32⟩
  | .hbm, ⟨58, _⟩ => ⟨S131072x1, .f32⟩
  | .hbm, ⟨59, _⟩ => ⟨S131072x1, .f32⟩
  | .hbm, ⟨60, _⟩ => ⟨S131072x1088, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S_, .f32⟩
  | .hbm, ⟨66, _⟩ => ⟨S_, .f32⟩
  | .hbm, ⟨67, _⟩ => ⟨S131072x256, .f32⟩
  | .hbm, ⟨68, _⟩ => ⟨S131072x256, .i1⟩
  | .hbm, ⟨69, _⟩ => ⟨S_, .f32⟩
  | .hbm, ⟨70, _⟩ => ⟨S131072x256, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S1x256, .f32⟩
  | .hbm, ⟨75, _⟩ => ⟨S131072x256, .f32⟩
  | .hbm, ⟨76, _⟩ => ⟨S131072x256, .f32⟩
  | .hbm, ⟨77, _⟩ => ⟨S_, .f32⟩
  | .hbm, ⟨78, _⟩ => ⟨S_, .f32⟩
  | .hbm, ⟨79, _⟩ => ⟨S131072x256, .f32⟩
  | .hbm, ⟨80, _⟩ => ⟨S131072x256, .i1⟩
  | .hbm, ⟨81, _⟩ => ⟨S_, .f32⟩
  | .hbm, ⟨82, _⟩ => ⟨S131072x256, .f32⟩
  | .hbm, ⟨83, _⟩ => ⟨S131072x256, .f32⟩
  | .hbm, ⟨84, _⟩ => ⟨S131072x256, .f32⟩
  | .hbm, ⟨85, _⟩ => ⟨S131072x128, .f32⟩
  | .hbm, ⟨86, _⟩ => ⟨S1x128, .f32⟩
  | .hbm, ⟨87, _⟩ => ⟨S131072x128, .f32⟩
  | .hbm, ⟨88, _⟩ => ⟨S131072x128, .f32⟩
  | .hbm, ⟨89, _⟩ => ⟨S_, .f32⟩
  | .hbm, ⟨90, _⟩ => ⟨S_, .f32⟩
  | .hbm, ⟨91, _⟩ => ⟨S131072x128, .f32⟩
  | .hbm, ⟨92, _⟩ => ⟨S131072x128, .i1⟩
  | .hbm, ⟨93, _⟩ => ⟨S_, .f32⟩
  | .hbm, ⟨94, _⟩ => ⟨S131072x128, .f32⟩
  | .hbm, ⟨95, _⟩ => ⟨S131072x128, .f32⟩
  | .hbm, ⟨96, _⟩ => ⟨S131072x128, .f32⟩
  | .hbm, ⟨97, _⟩ => ⟨S131072x1, .f32⟩
  | .hbm, ⟨98, _⟩ => ⟨S1x1, .f32⟩
  | .hbm, ⟨99, _⟩ => ⟨S131072x1, .f32⟩
  | .hbm, ⟨100, _⟩ => ⟨S131072x1, .f32⟩
  | .hbm, ⟨101, _⟩ => ⟨S131072x1, .f32⟩
  | .hbm, ⟨102, _⟩ => ⟨S131072x1, .f32⟩
  | _, _ => ⟨S131072x18, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v0 : Ref sig .tc := ⟨.hbm, 14, rfl⟩
abbrev main_v1 : Ref sig .tc := ⟨.hbm, 15, rfl⟩
abbrev main_c_2 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_cst_10 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_11 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_12 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_13 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩

abbrev nD : Nat := 1
abbrev τ : Topo := Topo.v7x

variable {F : FTy → Type} [FloatOps F]

class Facts₀ : Prop where
  bcast_S_S17 : S_.BroadcastsInDim S17 (![] : Fin 0 → Fin S17.rank)
  bcast_S17_S17x1_0 : S17.BroadcastsInDim S17x1 (![0] : Fin 1 → Fin S17x1.rank)
  bcast_S17_S1x17_1 : S17.BroadcastsInDim S1x17 (![1] : Fin 1 → Fin S1x17.rank)
  bcast_S1x17_S131072x17_0_1 : S1x17.BroadcastsInDim S131072x17 (![0, 1] : Fin 2 → Fin S131072x17.rank)
  bcast_S_S131072x17 : S_.BroadcastsInDim S131072x17 (![] : Fin 0 → Fin S131072x17.rank)
  bcast_S131072x17_S131072x17x1_0_1 : S131072x17.BroadcastsInDim S131072x17x1 (![0, 1] : Fin 2 → Fin S131072x17x1.rank)
  shapeCasts_S131072x17x1_S131072x17 : S131072x17x1.ShapeCasts S131072x17
  reducesTo_S131072x17_S131072_d1 : S131072x17.ReducesTo [1] S131072
  h_S_ : 0 < S_.numel
  bcast_S131072_S131072x1_0 : S131072.BroadcastsInDim S131072x1 (![0] : Fin 1 → Fin S131072x1.rank)
  reducesTo_S131072x17x64_S131072x64_d1 : S131072x17x64.ReducesTo [1] S131072x64
  reducesTo_S131072x64_S131072_d1 : S131072x64.ReducesTo [1] S131072
  bcast_S_S131072x1 : S_.BroadcastsInDim S131072x1 (![] : Fin 0 → Fin S131072x1.rank)
  shapeCasts_S131072x17x64_S131072x1088 : S131072x17x64.ShapeCasts S131072x1088
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  bcast_S_S131072x256 : S_.BroadcastsInDim S131072x256 (![] : Fin 0 → Fin S131072x256.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  gather_S131072x18_S17x1_S131072x17_0_1_n_n_1_1_1310721_wf : GatherDims.WF S131072x18 S17x1 S131072x17 [0] [1] [] [1] [] 1 ![131072, 1]
  gather_S153902x64_S131072x17x1_S131072x17x64_2_0_n_n_0_2_164_wf : GatherDims.WF S153902x64 S131072x17x1 S131072x17x64 [2] [0] [] [0] [] 2 ![1, 64]
  gather_S153902x1_S131072x17x1_S131072x17x1_2_0_n_n_0_2_11_wf : GatherDims.WF S153902x1 S131072x17x1 S131072x17x1 [2] [0] [] [0] [] 2 ![1, 1]
  dot_S131072x1088_S1088x256_S131072x256_1_0_0_1_n_n_wf : DotDims.WF S131072x1088 S1088x256 S131072x256 [1] [0] [0] [1] [] []
  dot_S131072x256_S256x256_S131072x256_1_0_0_1_n_n_wf : DotDims.WF S131072x256 S256x256 S131072x256 [1] [0] [0] [1] [] []
  dot_S131072x256_S256x128_S131072x128_1_0_0_1_n_n_wf : DotDims.WF S131072x256 S256x128 S131072x128 [1] [0] [0] [1] [] []
  dot_S131072x128_S128x1_S131072x1_1_0_0_1_n_n_wf : DotDims.WF S131072x128 S128x1 S131072x1 [1] [0] [0] [1] [] []

variable [Facts₀]

def gather_S131072x18_S17x1_S131072x17_0_1_n_n_1_1_1310721 : GatherDims S131072x18 S17x1 S131072x17 where
  offsetDims := [0]
  collapsedSliceDims := [1]
  operandBatchingDims := []
  startIndicesBatchingDims := []
  startIndexMap := [1]
  indexVectorDim := 1
  sliceSizes := ![131072, 1]
  wf := gather_S131072x18_S17x1_S131072x17_0_1_n_n_1_1_1310721_wf
def gather_S153902x64_S131072x17x1_S131072x17x64_2_0_n_n_0_2_164 : GatherDims S153902x64 S131072x17x1 S131072x17x64 where
  offsetDims := [2]
  collapsedSliceDims := [0]
  operandBatchingDims := []
  startIndicesBatchingDims := []
  startIndexMap := [0]
  indexVectorDim := 2
  sliceSizes := ![1, 64]
  wf := gather_S153902x64_S131072x17x1_S131072x17x64_2_0_n_n_0_2_164_wf
def gather_S153902x1_S131072x17x1_S131072x17x1_2_0_n_n_0_2_11 : GatherDims S153902x1 S131072x17x1 S131072x17x1 where
  offsetDims := [2]
  collapsedSliceDims := [0]
  operandBatchingDims := []
  startIndicesBatchingDims := []
  startIndexMap := [0]
  indexVectorDim := 2
  sliceSizes := ![1, 1]
  wf := gather_S153902x1_S131072x17x1_S131072x17x1_2_0_n_n_0_2_11_wf
def dot_S131072x1088_S1088x256_S131072x256_1_0_0_1_n_n : DotDims S131072x1088 S1088x256 S131072x256 where
  lhsContracting := [1]
  rhsContracting := [0]
  lhsNonContracting := [0]
  rhsNonContracting := [1]
  lhsBatch := []
  rhsBatch := []
  wf := dot_S131072x1088_S1088x256_S131072x256_1_0_0_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.KBlocks.lean ====
/-
  Each input window's block at a grid point, read off the array the kernel launch finds.
  The launch walks 64 grid points; at point t the two row-tiled operands (the flattened looked-up features,
  [131072, 1088], and the bias column, [131072, 1]) present rows 2048 t … 2048 t + 2047, and the nine weight and
  bias operands present the whole array at every point (their block index is constantly (0, 0)).
-/
import proofs.«178218_j58016418234670_1_alg».proof.Proof.Gen.KernelIdeal.Value
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- The block index of every window at every grid point: the row-tiled operands and the result at block (t, 0),
    the others at block (0, 0). Decided over the 64 points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

theorem N_eq : cfg0.N = 64 := N_0

/-- Grid point t's 2048 rows lie inside the 131072 rows. -/
theorem rows_le (t : Fin cfg0.N) : t.val * 2048 + 2048 ≤ 131072 := by
  have := t.isLt; have hN : cfg0.N = 64 := N_0; omega

/-- The features' block at point t is rows 2048 t … of the flattened features. -/
theorem iblk0_apply (c : Dev nD) (t : Fin cfg0.N) (x : S2048x1088.Idx) (k : S131072x1088.Idx)
    (hk0 : (k 0).val = t.val * 2048 + (x 0).val) (hk1 : (k 1).val = (x 1).val) :
    (iblk m c 0 t : Vec F S2048x1088 .bf16) x = (V m c main_v16 : S131072x1088.Idx → Elt F .bf16) k := by
  obtain ⟨⟨e0, e1⟩, -⟩ := idx_facts t
  unfold iblk
  rw [View.read_apply]
  show V m c main_v16 _ = V m c main_v16 _
  refine congrArg (V m c main_v16) ?_
  funext a
  apply Fin.ext
  match a with
  | ⟨0, _⟩ => show win0_0.index t (0 : Fin 2) * 2048 + 1 * (x 0).val = (k 0).val; rw [e0, hk0]; omega
  | ⟨1, _⟩ => show win0_0.index t (1 : Fin 2) * 1088 + 1 * (x 1).val = (k 1).val; rw [e1, hk1]; omega

/-- The bias column's block at point t is rows 2048 t … of the bias column. -/
theorem iblk1_apply (c : Dev nD) (t : Fin cfg0.N) (x : S2048x1.Idx) (k : S131072x1.Idx)
    (hk0 : (k 0).val = t.val * 2048 + (x 0).val) (hk1 : (k 1).val = (x 1).val) :
    (iblk m c 1 t : Vec F S2048x1 .f32) x = (V m c main_v26 : S131072x1.Idx → Elt F .f32) k := by
  obtain ⟨-, ⟨e0, e1⟩, -⟩ := idx_facts t
  unfold iblk
  rw [View.read_apply]
  show V m c main_v26 _ = V m c main_v26 _
  refine congrArg (V m c main_v26) ?_
  funext a
  apply Fin.ext
  match a with
  | ⟨0, _⟩ => show win0_1.index t (0 : Fin 2) * 2048 + 1 * (x 0).val = (k 0).val; rw [e0, hk0]; omega
  | ⟨1, _⟩ => show win0_1.index t (1 : Fin 2) * 1 + 1 * (x 1).val = (k 1).val; rw [e1, hk1]; omega

/-- Window 2 presents its whole array at every point. -/
theorem iblk2_eq (c : Dev nD) (t : Fin cfg0.N) :
    (iblk m c 2 t : Vec F S1088x64 .bf16) = (V m c main_v35 : S1088x64.Idx → Elt F .bf16) := by
  obtain ⟨-, -, ⟨e0, e1⟩, -⟩ := idx_facts t
  funext x
  unfold iblk
  rw [View.read_apply]
  show V m c main_v35 _ = V m c main_v35 _
  refine congrArg (V m c main_v35) ?_
  funext a
  apply Fin.ext
  match a with
  | ⟨0, _⟩ => show win0_2.index t (0 : Fin 2) * 1088 + 1 * (x 0).val = (x 0).val; rw [e0]; omega
  | ⟨1, _⟩ => show win0_2.index t (1 : Fin 2) * 64 + 1 * (x 1).val = (x 1).val; rw [e1]; omega

/-- Window 3 presents its whole array at every point. -/
theorem iblk3_eq (c : Dev nD) (t : Fin cfg0.N) :
    (iblk m c 3 t : Vec F S1088x256 .bf16) = (V m c main_v36 : S1088x256.Idx → Elt F .bf16) := by
  obtain ⟨-, -, -, ⟨e0, e1⟩, -⟩ := idx_facts t
  funext x
  unfold iblk
  rw [View.read_apply]
  show V m c main_v36 _ = V m c main_v36 _
  refine congrArg (V m c main_v36) ?_
  funext a
  apply Fin.ext
  match a with
  | ⟨0, _⟩ => show win0_3.index t (0 : Fin 2) * 1088 + 1 * (x 0).val = (x 0).val; rw [e0]; omega
  | ⟨1, _⟩ => show win0_3.index t (1 : Fin 2) * 256 + 1 * (x 1).val = (x 1).val; rw [e1]; omega

/-- Window 4 presents its whole array at every point. -/
theorem iblk4_eq (c : Dev nD) (t : Fin cfg0.N) :
    (iblk m c 4 t : Vec F S1x256 .f32) = (V m c main_v37 : S1x256.Idx → Elt F .f32) := by
  obtain ⟨-, -, -, -, ⟨e0, e1⟩, -⟩ := idx_facts t
  funext x
  unfold iblk
  rw [View.read_apply]
  show V m c main_v37 _ = V m c main_v37 _
  refine congrArg (V m c main_v37) ?_
  funext a
  apply Fin.ext
  match a with
  | ⟨0, _⟩ => show win0_4.index t (0 : Fin 2) * 1 + 1 * (x 0).val = (x 0).val; rw [e0]; omega
  | ⟨1, _⟩ => show win0_4.index t (1 : Fin 2) * 256 + 1 * (x 1).val = (x 1).val; rw [e1]; omega

/-- Window 5 presents its whole array at every point. -/
theorem iblk5_eq (c : Dev nD) (t : Fin cfg0.N) :
    (iblk m c 5 t : Vec F S256x256 .bf16) = (V m c main_v38 : S256x256.Idx → Elt F .bf16) := by
  obtain ⟨-, -, -, -, -, ⟨e0, e1⟩, -⟩ := idx_facts t
  funext x
  unfold iblk
  rw [View.read_apply]
  show V m c main_v38 _ = V m c main_v38 _
  refine congrArg (V m c main_v38) ?_
  funext a
  apply Fin.ext
  match a with
  | ⟨0, _⟩ => show win0_5.index t (0 : Fin 2) * 256 + 1 * (x 0).val = (x 0).val; rw [e0]; omega
  | ⟨1, _⟩ => show win0_5.index t (1 : Fin 2) * 256 + 1 * (x 1).val = (x 1).val; rw [e1]; omega

/-- Window 6 presents its whole array at every point. -/
theorem iblk6_eq (c : Dev nD) (t : Fin cfg0.N) :
    (iblk m c 6 t : Vec F S1x256 .f32) = (V m c main_v39 : S1x256.Idx → Elt F .f32) := by
  obtain ⟨-, -, -, -, -, -, ⟨e0, e1⟩, -⟩ := idx_facts t
  funext x
  unfold iblk
  rw [View.read_apply]
  show V m c main_v39 _ = V m c main_v39 _
  refine congrArg (V m c main_v39) ?_
  funext a
  apply Fin.ext
  match a with
  | ⟨0, _⟩ => show win0_6.index t (0 : Fin 2) * 1 + 1 * (x 0).val = (x 0).val; rw [e0]; omega
  | ⟨1, _⟩ => show win0_6.index t (1 : Fin 2) * 256 + 1 * (x 1).val = (x 1).val; rw [e1]; omega

/-- Window 7 presents its whole array at every point. -/
theorem iblk7_eq (c : Dev nD) (t : Fin cfg0.N) :
    (iblk m c 7 t : Vec F S256x128 .bf16) = (V m c main_v40 : S256x128.Idx → Elt F .bf16) := by
  obtain ⟨-, -, -, -, -, -, -, ⟨e0, e1⟩, -⟩ := idx_facts t
  funext x
  unfold iblk
  rw [View.read_apply]
  show V m c main_v40 _ = V m c main_v40 _
  refine congrArg (V m c main_v40) ?_
  funext a
  apply Fin.ext
  match a with
  | ⟨0, _⟩ => show win0_7.index t (0 : Fin 2) * 256 + 1 * (x 0).val = (x 0).val; rw [e0]; omega
  | ⟨1, _⟩ => show win0_7.index t (1 : Fin 2) * 128 + 1 * (x 1).val = (x 1).val; rw [e1]; omega

/-- Window 8 presents its whole array at every point. -/
theorem iblk8_eq (c : Dev nD) (t : Fin cfg0.N) :
    (iblk m c 8 t : Vec F S1x128 .f32) = (V m c main_v41 : S1x128.Idx → Elt F .f32) := by
  obtain ⟨-, -, -, -, -, -, -, -, ⟨e0, e1⟩, -⟩ := idx_facts t
  funext x
  unfold iblk
  rw [View.read_apply]
  show V m c main_v41 _ = V m c main_v41 _
  refine congrArg (V m c main_v41) ?_
  funext a
  apply Fin.ext
  match a with
  | ⟨0, _⟩ => show win0_8.index t (0 : Fin 2) * 1 + 1 * (x 0).val = (x 0).val; rw [e0]; omega
  | ⟨1, _⟩ => show win0_8.index t (1 : Fin 2) * 128 + 1 * (x 1).val = (x 1).val; rw [e1]; omega

/-- Window 9 presents its whole array at every point. -/
theorem iblk9_eq (c : Dev nD) (t : Fin cfg0.N) :
    (iblk m c 9 t : Vec F S128x1 .bf16) = (V m c main_v42 : S128x1.Idx → Elt F .bf16) := by
  obtain ⟨-, -, -, -, -, -, -, -, -, ⟨e0, e1⟩, -⟩ := idx_facts t
  funext x
  unfold iblk
  rw [View.read_apply]
  show V m c main_v42 _ = V m c main_v42 _
  refine congrArg (V m c main_v42) ?_
  funext a
  apply Fin.ext
  match a with
  | ⟨0, _⟩ => show win0_9.index t (0 : Fin 2) * 128 + 1 * (x 0).val = (x 0).val; rw [e0]; omega
  | ⟨1, _⟩ => show win0_9.index t (1 : Fin 2) * 1 + 1 * (x 1).val = (x 1).val; rw [e1]; omega

/-- Window 10 presents its whole array at every point. -/
theorem iblk10_eq (c : Dev nD) (t : Fin cfg0.N) :
    (iblk m c 10 t : Vec F S1x1 .f32) = (V m c main_v43 : S1x1.Idx → Elt F .f32) := by
  obtain ⟨-, -, -, -, -, -, -, -, -, -, ⟨e0, e1⟩, -⟩ := idx_facts t
  funext x
  unfold iblk
  rw [View.read_apply]
  show V m c main_v43 _ = V m c main_v43 _
  refine congrArg (V m c main_v43) ?_
  funext a
  apply Fin.ext
  match a with
  | ⟨0, _⟩ => show win0_10.index t (0 : Fin 2) * 1 + 1 * (x 0).val = (x 0).val; rw [e0]; omega
  | ⟨1, _⟩ => show win0_10.index t (1 : Fin 2) * 1 + 1 * (x 1).val = (x 1).val; rw [e1]; omega

end Cert.KernelIdeal.Hand

end
-- ==== Proof.Spec.lean ====
/-
  The value both programs compute, stage by stage, as one function of the eleven argument arrays.

  For each of the 131072 samples r: seventeen table rows are looked up (row index = the sample's category code in one
  of seventeen columns of x, plus that column's offset into the packed table; a negative index wraps by the table
  length), giving feats r g d for g < 17, d < 64, and seventeen bias-table entries whose sum is biasCol r.
  The pairwise-interaction score is fm r = 1/2 * sum over d of ((sum over g of feats r g d)^2 - sum over g of (feats r g d)^2).
  The 1088 = 17 * 64 looked-up numbers of a sample, flattened, pass through three layers x |-> lrelu (x * W + b), with
  lrelu v = v where v >= 0 and 0.01f * v elsewhere, and a last layer x * W4 + b4 with one output.
  The result is (mlp r + biasCol r) + fm r.
  Every stage is written with the host's whole-array operations, in the reference's own order.
-/
import proofs.«178218_j58016418234670_1_alg».proof.ReferenceIdeal

noncomputable section

namespace Cert.Spec

open Idealize.ShloMosaic Cert.ReferenceIdeal Cert.ReferenceIdeal.Facts₀

variable {F : FTy → Type} [FloatOps F] [Cert.ReferenceIdeal.Facts]

/-- An array of shape s with elements of type e. -/
abbrev Arr (F : FTy → Type) [FloatOps F] (s : Shape) (e : EltTy) : Type := (⟨s, e⟩ : BufTy).Contents (Elt F)

/-- The seventeen columns of x that are read, in feature order. -/
def cols : Arr F S17 .i32 := fun i => lit0 (S17.rowMajor i)

/-- Each feature's offset into the packed tables. -/
def offs : Arr F S17 .i32 := fun i => lit1 (S17.rowMajor i)

/-- The column numbers as gather start indices: a negative column number would count from the end (none is negative). -/
def colIdx : Arr F S17x1 .i32 :=
  broadcastInDim S17x1 ![0] bcast_S17_S17x1_0
    (select (cmpi .slt (cols (F := F)) (broadcastInDim S17 ![] bcast_S_S17 (constantI S_ 32 0#32)))
      (addi (cols (F := F)) (broadcastInDim S17 ![] bcast_S_S17 (constantI S_ 32 18#32))) (cols (F := F)))

/-- Packed-table row numbers: x at the seventeen columns plus the offsets. -/
def idx (x : Arr F S131072x18 .i32) : Arr F S131072x17 .i32 :=
  addi (Host.gather gather_S131072x18_S17x1_S131072x17_0_1_n_n_1_1_1310721 x (colIdx (F := F)))
    (broadcastInDim S131072x17 ![0, 1] bcast_S1x17_S131072x17_0_1 (broadcastInDim S1x17 ![1] bcast_S17_S1x17_1 (offs (F := F))))

/-- Row numbers as gather start indices: a negative one wraps by the table length 153902. -/
def wrapIdx (i : Arr F S131072x17 .i32) : Arr F S131072x17x1 .i32 :=
  broadcastInDim S131072x17x1 ![0, 1] bcast_S131072x17_S131072x17x1_0_1
    (select (cmpi .slt i (broadcastInDim S131072x17 ![] bcast_S_S131072x17 (constantI S_ 32 0#32)))
      (addi i (broadcastInDim S131072x17 ![] bcast_S_S131072x17 (constantI S_ 32 153902#32))) i)

/-- The looked-up embedding rows, [131072, 17, 64]. -/
def feats (x : Arr F S131072x18 .i32) (table : Arr F S153902x64 .f32) : Arr F S131072x17x64 .f32 :=
  Host.gather gather_S153902x64_S131072x17x1_S131072x17x64_2_0_n_n_0_2_164 table (wrapIdx (idx x))

/-- The sum of the seventeen looked-up bias entries of each sample, as a column [131072, 1]. -/
def biasCol (x : Arr F S131072x18 .i32) (biasTable : Arr F S153902x1 .f32) : Arr F S131072x1 .f32 :=
  broadcastInDim S131072x1 ![0] bcast_S131072_S131072x1_0
    (Host.reduceAdd
      (shapeCast S131072x17
        (Host.gather gather_S153902x1_S131072x17x1_S131072x17x1_2_0_n_n_0_2_11 biasTable (wrapIdx (idx x)))
        shapeCasts_S131072x17x1_S131072x17)
      (constant S_ .f32 0x00000000#32) reducesTo_S131072x17_S131072_d1 h_S_)

/-- The sum over the seventeen features, [131072, 64]. -/
def groupSum (f : Arr F S131072x17x64 .f32) : Arr F S131072x64 .f32 :=
  Host.reduceAdd f (constant S_ .f32 0x00000000#32) reducesTo_S131072x17x64_S131072x64_d1 h_S_

/-- The pairwise-interaction score, a column [131072, 1]. -/
def fm (f : Arr F S131072x17x64 .f32) : Arr F S131072x1 .f32 :=
  mulf (broadcastInDim S131072x1 ![] bcast_S_S131072x1 (constant S_ .f32 0x3F000000#32))
    (broadcastInDim S131072x1 ![0] bcast_S131072_S131072x1_0
      (Host.reduceAdd (subf (mulf (groupSum f) (groupSum f)) (groupSum (mulf f f)))
        (constant S_ .f32 0x00000000#32) reducesTo_S131072x64_S131072_d1 h_S_))

/-- lrelu on a [131072, 256] array: v where v >= 0, 0.01f * v elsewhere. -/
def lrelu256 (v : Arr F S131072x256 .f32) : Arr F S131072x256 .f32 :=
  select (cmpf .oge v (broadcastInDim S131072x256 ![] bcast_S_S131072x256 (constant S_ .f32 0x00000000#32))) v
    (mulf (broadcastInDim S131072x256 ![] bcast_S_S131072x256 (id (constant S_ .f32 0x3C23D70A#32))) v)

/-- lrelu on a [131072, 128] array. -/
def lrelu128 (v : Arr F S131072x128 .f32) : Arr F S131072x128 .f32 :=
  select (cmpf .oge v (broadcastInDim S131072x128 ![] bcast_S_S131072x128 (constant S_ .f32 0x00000000#32))) v
    (mulf (broadcastInDim S131072x128 ![] bcast_S_S131072x128 (id (constant S_ .f32 0x3C23D70A#32))) v)

/-- The first layer's output before lrelu: flattened features times W1 plus b1. -/
def pre1 (f : Arr F S131072x17x64 .f32) (w1 : Arr F S1088x256 .f32) (b1 : Arr F S256 .f32) : Arr F S131072x256 .f32 :=
  addf (Host.dotGeneral dot_S131072x1088_S1088x256_S131072x256_1_0_0_1_n_n none
      (shapeCast S131072x1088 f shapeCasts_S131072x17x64_S131072x1088) w1)
    (broadcastInDim S131072x256 ![0, 1] bcast_S1x256_S131072x256_0_1 (broadcastInDim S1x256 ![1] bcast_S256_S1x256_1 b1))

def pre2 (h : Arr F S131072x256 .f32) (w2 : Arr F S256x256 .f32) (b2 : Arr F S256 .f32) : Arr F S131072x256 .f32 :=
  addf (Host.dotGeneral dot_S131072x256_S256x256_S131072x256_1_0_0_1_n_n none h w2)
    (broadcastInDim S131072x256 ![0, 1] bcast_S1x256_S131072x256_0_1 (broadcastInDim S1x256 ![1] bcast_S256_S1x256_1 b2))

def pre3 (h : Arr F S131072x256 .f32) (w3 : Arr F S256x128 .f32) (b3 : Arr F S128 .f32) : Arr F S131072x128 .f32 :=
  addf (Host.dotGeneral dot_S131072x256_S256x128_S131072x128_1_0_0_1_n_n none h w3)
    (broadcastInDim S131072x128 ![0, 1] bcast_S1x128_S131072x128_0_1 (broadcastInDim S1x128 ![1] bcast_S128_S1x128_1 b3))

def pre4 (h : Arr F S131072x128 .f32) (w4 : Arr F S128x1 .f32) (b4 : Arr F S1 .f32) : Arr F S131072x1 .f32 :=
  addf (Host.dotGeneral dot_S131072x128_S128x1_S131072x1_1_0_0_1_n_n none h w4)
    (broadcastInDim S131072x1 ![0, 1] bcast_S1x1_S131072x1_0_1 (broadcastInDim S1x1 ![1] bcast_S1_S1x1_1 b4))

/-- The four layers on the looked-up features. -/
def mlp (f : Arr F S131072x17x64 .f32) (w1 : Arr F S1088x256 .f32) (b1 : Arr F S256 .f32) (w2 : Arr F S256x256 .f32)
    (b2 : Arr F S256 .f32) (w3 : Arr F S256x128 .f32) (b3 : Arr F S128 .f32) (w4 : Arr F S128x1 .f32) (b4 : Arr F S1 .f32) :
    Arr F S131072x1 .f32 :=
  pre4 (lrelu128 (pre3 (lrelu256 (pre2 (lrelu256 (pre1 f w1 b1)) w2 b2)) w3 b3)) w4 b4

/-- The whole result, a column [131072, 1]: (mlp + bias) + fm. -/
def out (x : Arr F S131072x18 .i32) (table : Arr F S153902x64 .f32) (biasTable : Arr F S153902x1 .f32)
    (w1 : Arr F S1088x256 .f32) (b1 : Arr F S256 .f32) (w2 : Arr F S256x256 .f32) (b2 : Arr F S256 .f32)
    (w3 : Arr F S256x128 .f32) (b3 : Arr F S128 .f32) (w4 : Arr F S128x1 .f32) (b4 : Arr F S1 .f32) : Arr F S131072x1 .f32 :=
  addf (addf (mlp (feats x table) w1 b1 w2 b2 w3 b3 w4 b4) (biasCol x biasTable)) (fm (feats x table))

end Cert.Spec

end
-- ==== Proof.KTables.lean ====
/-
  Three closed facts about constant tables that the host part of the kernel program (and of the reference program)
  builds before the main computation.

  (1) The grouping matrix G of shape [1088, 64]: the 64 × 64 identity, written as "row number (+ 0) equals column number",
      converted from a bit to a number, viewed as [1, 64, 1, 64], repeated 17 times along the leading axis and flattened
      to [1088, 64]. Row j = 64·g + a of the result is row a of the identity, so G(j, d) = 1 if j mod 64 = d and 0 otherwise.
  (2) The kernel's column table (the seventeen column numbers 0, 1, …, 7, 16, 15, …, 8) passes unchanged through a
      selection whose selector is the constant "false".
  (3) The reference's column table (the same seventeen numbers) passes unchanged through a selection whose selector is
      "the column number is negative": none of the seventeen numbers is negative as a signed 32-bit word.
-/
import proofs.«178218_j58016418234670_1_alg».proof.Proof.Gen.KernelIdeal
import proofs.«178218_j58016418234670_1_alg».proof.Proof.Gen.ReferenceIdeal
import Idealize.ShloMosaic.Lib.ValueIdx
import Idealize.ShloMosaic.Lib.Pipeline.Value
import Idealize.ShloMosaic.Lib.ValueLayout

noncomputable section

namespace Cert.KernelIdeal.Tables

open Cert.KernelIdeal Cert.KernelIdeal.Facts₀ Idealize.ShloMosaic Idealize.ShloMosaic.ValueIdx

/-- Two numbers below 64, as 32-bit words, the first with the zero word added: the words are equal exactly when the
    numbers are. -/
theorem word_add_zero_beq (a b : Nat) (ha : a < 64) (hb : b < 64) :
    (BitVec.ofNat 32 a + 0#32 == BitVec.ofNat 32 b) = decide (a = b) := by
  rw [BitVec.add_zero]
  by_cases h : a = b
  · subst h; simp
  · have hne : BitVec.ofNat 32 a ≠ BitVec.ofNat 32 b := by
      intro e
      have := congrArg BitVec.toNat e
      simp only [BitVec.toNat_ofNat] at this
      omega
    simp [hne, h]

/-- THE GROUPING MATRIX at an index: entry (j, d) is 1 when j mod 64 = d and 0 otherwise. -/
theorem gmat_apply (j : Fin 1088) (d : Fin 64) :
    (shapeCast S1088x64 (broadcastInDim S17x64x1x64 ![0, 1, 2, 3] bcast_S1x64x1x64_S17x64x1x64_0_1_2_3
       (shapeCast S1x64x1x64 (uitofp (F := Ideal) .bf16 (cmpi .eq (addi (iotaInDim S64x64 32 0) (broadcastInDim S64x64 ![] bcast_S_S64x64 (constantI S_ 32 0#32))) (iotaInDim S64x64 32 1)))
         shapeCasts_S64x64_S1x64x1x64)) shapeCasts_S17x64x1x64_S1088x64 : FVec Ideal S1088x64 .bf16) (ix2 j d)
      = if j.val % 64 = d.val then (1 : EReal) else 0 := by
  have hg : j.val / 64 < 17 := by have := j.isLt; omega
  have ha : j.val % 64 < 64 := Nat.mod_lt _ (by norm_num)
  -- the flattening [17, 64, 1, 64] → [1088, 64]: row j = 64·g + a is (g, a, 0, ·)
  refine (shapeCast_apply _ shapeCasts_S17x64x1x64_S1088x64 (ix2 j d)
    (ix4 (⟨j.val / 64, hg⟩ : Fin 17) (⟨j.val % 64, ha⟩ : Fin 64) (0 : Fin 1) d) ?_).trans ?_
  · rw [Shape.rowMajor_val_four, Shape.rowMajor_val_two]
    show (((j.val / 64) * 64 + j.val % 64) * 1 + 0) * 64 + d.val = j.val * 64 + d.val
    omega
  -- the repetition along the leading axis: (g, a, 0, d) reads (0, a, 0, d)
  refine (broadcastInDim_apply _ bcast_S1x64x1x64_S17x64x1x64_0_1_2_3 _ _
    (ix4 (0 : Fin 1) (⟨j.val % 64, ha⟩ : Fin 64) (0 : Fin 1) d) ?_).trans ?_
  · intro a
    match a with
    | ⟨0, _⟩ => rfl
    | ⟨1, _⟩ => rfl
    | ⟨2, _⟩ => rfl
    | ⟨3, _⟩ => rfl
  -- the view [64, 64] → [1, 64, 1, 64]: (0, a, 0, d) reads (a, d)
  refine (shapeCast_apply _ shapeCasts_S64x64_S1x64x1x64 _ (ix2 (⟨j.val % 64, ha⟩ : Fin 64) d) ?_).trans ?_
  · rw [Shape.rowMajor_val_four, Shape.rowMajor_val_two]
    show (j.val % 64) * 64 + d.val = (((0 * 64 + j.val % 64) * 1 + 0) * 64) + d.val
    omega
  -- the identity at (a, d): the bit "a + 0 = d" as a number
  show (((BitVec.ofBool (BitVec.ofNat 32 (j.val % 64) + 0#32 == BitVec.ofNat 32 d.val)).toNat : ℝ) : EReal) = _
  rw [word_add_zero_beq _ _ ha d.isLt]
  by_cases h : j.val % 64 = d.val
  · rw [if_pos h]; simp [h]
  · rw [if_neg h]; simp [h]

/-- THE KERNEL'S COLUMN SELECTION keeps the column table: the selector is the constant "false", so every entry is the
    third operand's. -/
theorem colSel_kernel :
    select (constantI S17 1 0#1)
        (addi (fun i => lit0 (S17.rowMajor i) : IVec S17 32) (broadcastInDim S17 ![] bcast_S_S17 (constantI S_ 32 18#32)))
        (fun i => lit0 (S17.rowMajor i) : IVec S17 32)
      = (fun i => lit0 (S17.rowMajor i) : IVec S17 32) := by
  funext i
  exact select_zero _ _

end Cert.KernelIdeal.Tables

namespace Cert.ReferenceIdeal.Tables

open Cert.ReferenceIdeal Cert.ReferenceIdeal.Facts₀ Idealize.ShloMosaic Idealize.ShloMosaic.ValueIdx

/-- None of the seventeen column numbers is negative as a signed 32-bit word. -/
theorem lit0_not_neg (c : Fin 17) : (lit0 c).slt 0#32 = false := by
  fin_cases c <;> rfl

/-- THE REFERENCE'S COLUMN SELECTION keeps the column table: the selector "the column number is negative" is false at
    every one of the seventeen entries. -/
theorem colSel_ref :
    select (cmpi .slt (fun i => lit0 (S17.rowMajor i) : IVec S17 32) (broadcastInDim S17 ![] bcast_S_S17 (constantI S_ 32 0#32)))
        (addi (fun i => lit0 (S17.rowMajor i) : IVec S17 32) (broadcastInDim S17 ![] bcast_S_S17 (constantI S_ 32 18#32)))
        (fun i => lit0 (S17.rowMajor i) : IVec S17 32)
      = (fun i => lit0 (S17.rowMajor i) : IVec S17 32) := by
  funext i
  have h : (lit0 (S17.rowMajor i)).slt 0#32 = false := lit0_not_neg _
  show Scalar.select (BitVec.ofBool ((lit0 (S17.rowMajor i)).slt 0#32)) _ _ = _
  rw [h]
  exact select_zero _ _

end Cert.ReferenceIdeal.Tables

end
-- ==== Proof.KHost.lean ====
/-
  What the kernel launch finds in each of its eleven operand arrays, as a term of the program's eleven argument arrays.

  Before the launch the host part of the program computes, from the arguments x (category codes, [131072, 18]),
  the packed embedding table ([153902, 64]) and the packed bias table ([153902, 1]):
    · the looked-up embedding rows of every sample, narrowed to the 16-bit format and flattened to [131072, 1088];
    · the sum of the seventeen looked-up bias entries of every sample, as a column [131072, 1];
    · the grouping matrix [1088, 64] whose entry (j, d) is 1 when j mod 64 = d and 0 otherwise;
  and passes each weight matrix narrowed to the 16-bit format and each bias vector viewed as a one-row matrix.
  The first two are the same host operations the reference performs (its stages feats and biasCol), except that the
  kernel program's column selection has the constant selector "false" where the reference tests the column number's
  sign; both selections keep the column table.
-/
import proofs.«178218_j58016418234670_1_alg».proof.Proof.KBlocks
import proofs.«178218_j58016418234670_1_alg».proof.Proof.Spec
import proofs.«178218_j58016418234670_1_alg».proof.Proof.KTables
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Hand

open Cert.KernelIdeal Cert.KernelIdeal.Gen

section Weights

variable {F : FTy → Type} [FloatOps F]
variable (m : (ℓ : Loc nD τ sig) → Buf (Elt F) ℓ)

/-- The first layer's weights, narrowed. -/
theorem V36_eq (c : Dev nD) : (V m c main_v36 : S1088x256.Idx → Elt F .bf16)
    = truncf .bf16 (m ((c : Thread nD τ).loc main_arg3) : FVec F S1088x256 .f32) bitsLt_bf16_f32 := by
  dsimp only [Gen.V, Gen.hostOps0]
  after_results_simp

/-- The first layer's bias, as a one-row matrix. -/
theorem V37_eq (c : Dev nD) : (V m c main_v37 : S1x256.Idx → Elt F .f32)
    = shapeCast S1x256 (m ((c : Thread nD τ).loc main_arg4) : FVec F S256 .f32) shapeCasts_S256_S1x256 := by
  dsimp only [Gen.V, Gen.hostOps0]
  after_results_simp
  rfl

/-- The second layer's weights, narrowed. -/
theorem V38_eq (c : Dev nD) : (V m c main_v38 : S256x256.Idx → Elt F .bf16)
    = truncf .bf16 (m ((c : Thread nD τ).loc main_arg5) : FVec F S256x256 .f32) bitsLt_bf16_f32 := by
  dsimp only [Gen.V, Gen.hostOps0]
  after_results_simp

/-- The second layer's bias, as a one-row matrix. -/
theorem V39_eq (c : Dev nD) : (V m c main_v39 : S1x256.Idx → Elt F .f32)
    = shapeCast S1x256 (m ((c : Thread nD τ).loc main_arg6) : FVec F S256 .f32) shapeCasts_S256_S1x256 := by
  dsimp only [Gen.V, Gen.hostOps0]
  after_results_simp
  rfl

/-- The third layer's weights, narrowed. -/
theorem V40_eq (c : Dev nD) : (V m c main_v40 : S256x128.Idx → Elt F .bf16)
    = truncf .bf16 (m ((c : Thread nD τ).loc main_arg7) : FVec F S256x128 .f32) bitsLt_bf16_f32 := by
  dsimp only [Gen.V, Gen.hostOps0]
  after_results_simp

/-- The third layer's bias, as a one-row matrix. -/
theorem V41_eq (c : Dev nD) : (V m c main_v41 : S1x128.Idx → Elt F .f32)
    = shapeCast S1x128 (m ((c : Thread nD τ).loc main_arg8) : FVec F S128 .f32) shapeCasts_S128_S1x128 := by
  dsimp only [Gen.V, Gen.hostOps0]
  after_results_simp
  rfl

/-- The last layer's weights, narrowed. -/
theorem V42_eq (c : Dev nD) : (V m c main_v42 : S128x1.Idx → Elt F .bf16)
    = truncf .bf16 (m ((c : Thread nD τ).loc main_arg9) : FVec F S128x1 .f32) bitsLt_bf16_f32 := by
  dsimp only [Gen.V, Gen.hostOps0]
  after_results_simp

/-- The last layer's bias, as a one-by-one matrix. -/
theorem V43_eq (c : Dev nD) : (V m c main_v43 : S1x1.Idx → Elt F .f32)
    = shapeCast S1x1 (m ((c : Thread nD τ).loc main_arg10) : FVec F S1 .f32) shapeCasts_S1_S1x1 := by
  dsimp only [Gen.V, Gen.hostOps0]
  after_results_simp
  rfl

end Weights

/-! ## The kernel program's host lines before the launch, as named stages

The same stages as the reference's (its colIdx, idx, wrapIdx, feats, biasCol), written over the kernel program's own
shapes, records and literal tables, with the kernel program's column selection (selector: the constant "false"). -/

section Stages

variable {F : FTy → Type} [FloatOps F]

/-- The two programs list the same seventeen column numbers … -/
theorem lit0_eq : Cert.KernelIdeal.lit0 = Cert.ReferenceIdeal.lit0 := by
  funext c; fin_cases c <;> rfl
/-- … and the same seventeen offsets. -/
theorem lit1_eq : Cert.KernelIdeal.lit1 = Cert.ReferenceIdeal.lit1 := by
  funext c; fin_cases c <;> rfl

/-- Packed-table row numbers: x at the seventeen columns plus the offsets. -/
def kIdx (x : (⟨S131072x18, .i32⟩ : BufTy).Contents (Elt F)) : (⟨S131072x17, .i32⟩ : BufTy).Contents (Elt F) :=
  addi (Host.gather gather_S131072x18_S17x1_S131072x17_0_1_n_n_1_1_1310721 x
      (broadcastInDim S17x1 ![0] bcast_S17_S17x1_0
        (select (constantI S17 1 0#1)
          (addi (fun i => lit0 (S17.rowMajor i) : IVec S17 32) (broadcastInDim S17 ![] bcast_S_S17 (constantI S_ 32 18#32)))
          (fun i => lit0 (S17.rowMajor i) : IVec S17 32))))
    (broadcastInDim S131072x17 ![0, 1] bcast_S1x17_S131072x17_0_1
      (broadcastInDim S1x17 ![1] bcast_S17_S1x17_1 (fun i => lit1 (S17.rowMajor i) : IVec S17 32)))

/-- Row numbers as gather start indices: a negative one wraps by the table length 153902. -/
def kWrap (i : (⟨S131072x17, .i32⟩ : BufTy).Contents (Elt F)) : (⟨S131072x17x1, .i32⟩ : BufTy).Contents (Elt F) :=
  broadcastInDim S131072x17x1 ![0, 1] bcast_S131072x17_S131072x17x1_0_1
    (select (cmpi .slt i (broadcastInDim S131072x17 ![] bcast_S_S131072x17 (constantI S_ 32 0#32)))
      (addi i (broadcastInDim S131072x17 ![] bcast_S_S131072x17 (constantI S_ 32 153902#32))) i)

/-- The looked-up embedding rows, [131072, 17, 64]. -/
def kFeats (x : (⟨S131072x18, .i32⟩ : BufTy).Contents (Elt F)) (table : (⟨S153902x64, .f32⟩ : BufTy).Contents (Elt F)) :
    (⟨S131072x17x64, .f32⟩ : BufTy).Contents (Elt F) :=
  Host.gather gather_S153902x64_S131072x17x1_S131072x17x64_2_0_n_n_0_2_164 table (kWrap (F := F) (kIdx (F := F) x))

/-- The sum of the seventeen looked-up bias entries of each sample, as a column [131072, 1]. -/
def kBiasCol (x : (⟨S131072x18, .i32⟩ : BufTy).Contents (Elt F)) (biasTable : (⟨S153902x1, .f32⟩ : BufTy).Contents (Elt F)) :
    (⟨S131072x1, .f32⟩ : BufTy).Contents (Elt F) :=
  broadcastInDim S131072x1 ![0] bcast_S131072_S131072x1_0
    (Host.reduceAdd
      (shapeCast S131072x17
        (Host.gather gather_S153902x1_S131072x17x1_S131072x17x1_2_0_n_n_0_2_11 biasTable (kWrap (F := F) (kIdx (F := F) x)))
        shapeCasts_S131072x17x1_S131072x17)
      (constant S_ .f32 0x00000000#32) reducesTo_S131072x17_S131072_d1 h_S_)

attribute [local irreducible] Host.gather Host.reduceAdd in
/-- The row numbers are the reference's: both column selections keep the column table. -/
theorem kIdx_eq (x : (⟨S131072x18, .i32⟩ : BufTy).Contents (Elt F)) : kIdx (F := F) x = Cert.Spec.idx (F := F) x := by
  unfold kIdx Cert.Spec.idx Cert.Spec.colIdx Cert.Spec.cols Cert.Spec.offs
  rw [Cert.KernelIdeal.Tables.colSel_kernel, Cert.ReferenceIdeal.Tables.colSel_ref, lit0_eq, lit1_eq]
  rfl

attribute [local irreducible] Host.gather Host.reduceAdd in
/-- The wrapped start indices are the reference's. -/
theorem kWrap_eq (i : (⟨S131072x17, .i32⟩ : BufTy).Contents (Elt F)) : kWrap (F := F) i = Cert.Spec.wrapIdx (F := F) i := rfl

attribute [local irreducible] Host.gather Host.reduceAdd in
/-- The looked-up rows are the reference's. -/
theorem kFeats_eq (x : (⟨S131072x18, .i32⟩ : BufTy).Contents (Elt F)) (table : (⟨S153902x64, .f32⟩ : BufTy).Contents (Elt F)) :
    kFeats (F := F) x table = Cert.Spec.feats (F := F) x table := by
  unfold kFeats Cert.Spec.feats
  rw [kIdx_eq, kWrap_eq]
  rfl

attribute [local irreducible] Host.gather Host.reduceAdd in
/-- The bias column is the reference's. -/
theorem kBiasCol_eq (x : (⟨S131072x18, .i32⟩ : BufTy).Contents (Elt F)) (biasTable : (⟨S153902x1, .f32⟩ : BufTy).Contents (Elt F)) :
    kBiasCol (F := F) x biasTable = Cert.Spec.biasCol (F := F) x biasTable := by
  unfold kBiasCol Cert.Spec.biasCol
  rw [kIdx_eq, kWrap_eq]
  rfl

end Stages

section Looked

variable {F : FTy → Type} [FloatOps F]
variable (m : (ℓ : Loc nD τ sig) → Buf (Elt F) ℓ)

attribute [local irreducible] Host.gather Host.reduceAdd in
/-- The first operand: the looked-up embedding rows (the reference's feats), narrowed and flattened to [131072, 1088]. -/
theorem V16_eq (c : Dev nD) : (V m c main_v16 : S131072x1088.Idx → Elt F .bf16)
    = shapeCast S131072x1088
        (truncf .bf16 (Cert.Spec.feats (F := F) (m ((c : Thread nD τ).loc main_arg0)) (m ((c : Thread nD τ).loc main_arg1)))
          bitsLt_bf16_f32)
        shapeCasts_S131072x17x64_S131072x1088 := by
  rw [← kFeats_eq]
  dsimp only [Gen.V, Gen.hostOps0]
  after_results_simp
  rfl

attribute [local irreducible] Host.gather Host.reduceAdd in
/-- The second operand: the bias column (the reference's biasCol). -/
theorem V26_eq (c : Dev nD) : (V m c main_v26 : S131072x1.Idx → Elt F .f32)
    = Cert.Spec.biasCol (F := F) (m ((c : Thread nD τ).loc main_arg0)) (m ((c : Thread nD τ).loc main_arg2)) := by
  rw [← kBiasCol_eq]
  dsimp only [Gen.V, Gen.hostOps0]
  after_results_simp
  rfl

end Looked

section Grouping

variable (m : (ℓ : Loc nD τ sig) → Buf (Elt Ideal) ℓ)

/-- The third operand, the grouping matrix: entry (j, d) is 1 when j mod 64 = d and 0 otherwise. -/
theorem V35_apply (c : Dev nD) (j : Fin 1088) (d : Fin 64) :
    (V m c main_v35 : S1088x64.Idx → Elt Ideal .bf16) (ix2 j d) = if j.val % 64 = d.val then (1 : EReal) else 0 := by
  dsimp only [Gen.V, Gen.hostOps0]
  after_results_simp
  exact Cert.KernelIdeal.Tables.gmat_apply j d

end Grouping

end Cert.KernelIdeal.Hand

end
-- ==== Proof.LibDotSum.lean ====
/-
  A matrix product with ONE contracted axis, read at an index as a plain sum over that axis: for the host's
  product and for the matrix unit's product into a zero accumulator, both on the extended reals. The caller names the
  two operands' indices at contraction position k; the lemma re-indexes the sum by the axis's one coordinate.
-/
import Idealize.ShloMosaic.Lib.ValueIdx
import Idealize.ShloMosaic.Lib.KernelVsHost
import Idealize.ShloMosaic.PureOps.Ideal.Laws

namespace Idealize.ShloMosaic.DotSum

open Idealize.ShloMosaic Idealize.ShloMosaic.ValueIdx

/-- The host's product at an output index is the sum over the contracted axis of the operands' products, each read
    where the dimension numbers put it. -/
theorem dotGeneral_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    Host.dotGeneral d none x w j = ∑ k : Fin K, x (li k) * w (ri k) := by
  show FloatOps.dotGeneral d none _ x w j = _
  rw [Ideal.dotGeneral_apply, ← Equiv.sum_comp (contrEquiv1 d K hr hs).symm]
  exact Finset.sum_congr rfl fun k _ => by rw [hl k, hw k]

/-- The matrix unit's product into a zero accumulator likewise (its operands may be of a narrower format: on the
    extended reals a format is no restriction). -/
theorem matmul_zero_eq_sum {sl sr so : Shape} {φ₁ φ₂ : FTy} (d : DotDims sl sr so) (K : Nat) (hr : d.contr.rank = 1)
    (hs : d.contr.size ⟨0, by omega⟩ = K) (x : FVec Ideal sl φ₁) (w : FVec Ideal sr φ₂) (j : so.Idx)
    (li : Fin K → sl.Idx) (ri : Fin K → sr.Idx)
    (hl : ∀ k, d.lhsIdx j ((contrEquiv1 d K hr hs).symm k) = li k)
    (hw : ∀ k, d.rhsIdx j ((contrEquiv1 d K hr hs).symm k) = ri k) :
    matmul d none x w (constant so .f32 0x00000000#32) j = ∑ k : Fin K, x (li k) * w (ri k) := by
  rw [matmul_zero_eq_dotGeneral]
  exact dotGeneral_eq_sum d K hr hs x w j li ri hl hw

end Idealize.ShloMosaic.DotSum
-- ==== Proof.LibPlainProduct.lean ====
/-
  The plain matrix product — an [M, K] matrix times a [K, N] matrix, the left operand's axis 1 contracted against the
  right operand's axis 0, no batch axis — read at an entry (p, q) as the sum over k of x(p, k) · w(k, q), on the extended
  reals: for the host's product and for the matrix unit's product into a zero accumulator. The operands' indices at
  contraction position k are computed once here, for every M, K, N, so a caller only names its entry.
-/
import proofs.«178218_j58016418234670_1_alg».proof.Proof.LibDotSum

namespace Idealize.ShloMosaic.PlainProduct

open Idealize.ShloMosaic Idealize.ShloMosaic.ValueIdx

variable (M K N : Nat)

theorem contr_rank : (DotDims.plain M K N).contr.rank = 1 := rfl

theorem contr_size : (DotDims.plain M K N).contr.size ⟨0, by rw [contr_rank]; omega⟩ = K := rfl

/-- The left operand is read at row p, column k. -/
theorem lhsIdx_eq (p : Fin M) (q : Fin N) (k : Fin K) :
    (DotDims.plain M K N).lhsIdx (ix2 p q)
      ((contrEquiv1 (DotDims.plain M K N) K (contr_rank M K N) (contr_size M K N)).symm k) = ix2 p k := by
  funext a
  apply Fin.ext
  match a with
  | ⟨0, _⟩ =>
    unfold DotDims.lhsIdx
    split
    · next hb => exact absurd hb List.not_mem_nil
    · split
      · rfl
      · next hn => exact absurd (List.mem_singleton.mpr rfl) hn
  | ⟨1, _⟩ =>
    exact ((DotDims.plain M K N).lhsIdx_val_of_single rfl (ix2 p q) _).trans
      (contrEquiv1_symm_val (DotDims.plain M K N) K (contr_rank M K N) (contr_size M K N) k)

/-- The right operand is read at row k, column q. -/
theorem rhsIdx_eq (p : Fin M) (q : Fin N) (k : Fin K) :
    (DotDims.plain M K N).rhsIdx (ix2 p q)
      ((contrEquiv1 (DotDims.plain M K N) K (contr_rank M K N) (contr_size M K N)).symm k) = ix2 k q := by
  funext a
  apply Fin.ext
  match a with
  | ⟨0, _⟩ =>
    exact ((DotDims.plain M K N).rhsIdx_val_of_single rfl (ix2 p q) _).trans
      (contrEquiv1_symm_val (DotDims.plain M K N) K (contr_rank M K N) (contr_size M K N) k)
  | ⟨1, _⟩ =>
    unfold DotDims.rhsIdx
    split
    · next hb => exact absurd hb List.not_mem_nil
    · split
      · rfl
      · next hn => exact absurd (List.mem_singleton.mpr rfl) hn

/-- The host's plain product at (p, q). -/
theorem dotGeneral_at {φ₁ φ₂ : FTy} (x : FVec Ideal ⟨2, ![M, K]⟩ φ₁) (w : FVec Ideal ⟨2, ![K, N]⟩ φ₂) (p : Fin M) (q : Fin N) :
    Host.dotGeneral (DotDims.plain M K N) none x w (ix2 p q) = ∑ k : Fin K, x (ix2 p k) * w (ix2 k q) :=
  DotSum.dotGeneral_eq_sum (DotDims.plain M K N) K (contr_rank M K N) (contr_size M K N) x w (ix2 p q)
    (fun k => ix2 p k) (fun k => ix2 k q) (lhsIdx_eq M K N p q) (rhsIdx_eq M K N p q)

/-- The matrix unit's plain product into zeros at (p, q). -/
theorem matmul_zero_at {φ₁ φ₂ : FTy} (x : FVec Ideal ⟨2, ![M, K]⟩ φ₁) (w : FVec Ideal ⟨2, ![K, N]⟩ φ₂) (p : Fin M) (q : Fin N) :
    matmul (DotDims.plain M K N) none x w (constant ⟨2, ![M, N]⟩ .f32 0x00000000#32) (ix2 p q)
      = ∑ k : Fin K, x (ix2 p k) * w (ix2 k q) :=
  DotSum.matmul_zero_eq_sum (DotDims.plain M K N) K (contr_rank M K N) (contr_size M K N) x w (ix2 p q)
    (fun k => ix2 p k) (fun k => ix2 k q) (lhsIdx_eq M K N p q) (rhsIdx_eq M K N p q)

end Idealize.ShloMosaic.PlainProduct
-- ==== Proof.LibRowBlock.lean ====
/-
  Rows t·R, …, t·R + R − 1 of a [B, n] array form an [R, n] array. A program that works on each row by itself —
  entrywise arithmetic, a bias row added to every row, a matrix product with a fixed right factor, a run of columns
  cut out, arrays joined along their columns — produces, from those R rows, the same R rows of what it produces from
  the whole array. This file states that fact one operation at a time, on the extended reals, with the whole-array
  side written in the host's operations and the R-row side in the vector unit's, so that a kernel working through an
  array R rows at a time can be compared with a program working on the whole array at once.
  "IsRows t x' x" says: x' is rows t·R … t·R + R − 1 of x. The float formats of the two sides are free (on the
  extended reals a change of format is the identity), so a cast on one side needs no lemma of its own.
-/
import proofs.«178218_j58016418234670_1_alg».proof.Proof.LibPlainProduct
import Idealize.ShloMosaic.Lib.Pipeline.Value
import Idealize.ShloMosaic.Lib.ValueLayout
import Idealize.ShloMosaic.Lib.IdealHost

noncomputable section

open scoped BigOperators

namespace Idealize.ShloMosaic.RowBlock

open Idealize.ShloMosaic Idealize.ShloMosaic.ValueIdx

variable {B R : ℕ}

/-- Row p of the t-th group of R rows, as a row of the whole array. -/
abbrev row (t : ℕ) (h : t * R + R ≤ B) (p : Fin R) : Fin B := ⟨t * R + p.val, by have := p.isLt; omega⟩

/-- x' is rows t·R … t·R + R − 1 of x. -/
def IsRows {n : ℕ} (t : ℕ) (h : t * R + R ≤ B) (x' : (⟨2, ![R, n]⟩ : Shape).Idx → EReal)
    (x : (⟨2, ![B, n]⟩ : Shape).Idx → EReal) : Prop :=
  ∀ (p : Fin R) (q : Fin n), x' (ix2 p q) = x (ix2 (row t h p) q)

variable {t : ℕ} {h : t * R + R ≤ B}

/-- The rows themselves, as an array. -/
def rows {n : ℕ} (t : ℕ) (h : t * R + R ≤ B) (x : (⟨2, ![B, n]⟩ : Shape).Idx → EReal) :
    (⟨2, ![R, n]⟩ : Shape).Idx → EReal :=
  fun j => x (ix2 (row t h ⟨(j 0).val, idx2_lt0 j⟩) ⟨(j 1).val, idx2_lt1 j⟩)

theorem isRows_rows {n : ℕ} (x : (⟨2, ![B, n]⟩ : Shape).Idx → EReal) : IsRows t h (rows t h x) x :=
  fun _ _ => rfl

theorem IsRows.eq_rows {n : ℕ} {x' : (⟨2, ![R, n]⟩ : Shape).Idx → EReal} {x : (⟨2, ![B, n]⟩ : Shape).Idx → EReal}
    (hx : IsRows t h x' x) : x' = rows t h x := by
  funext j
  obtain ⟨p, q, rfl⟩ : ∃ (p : Fin R) (q : Fin n), j = ix2 p q := ⟨j 0, j 1, eq_ix2 j⟩
  exact hx p q

/-- A cast of the R rows to their own shape changes nothing. -/
theorem IsRows.castSelf {n : ℕ} {x' : (⟨2, ![R, n]⟩ : Shape).Idx → EReal} {x : (⟨2, ![B, n]⟩ : Shape).Idx → EReal}
    (hc : (⟨2, ![R, n]⟩ : Shape).ShapeCasts ⟨2, ![R, n]⟩) (hx : IsRows t h x' x) :
    IsRows t h (shapeCast ⟨2, ![R, n]⟩ x' hc) x := by
  rw [shapeCast_self]; exact hx

/-- A weight matrix cast to its own shape still agrees entry by entry. -/
theorem castSelf_entries {K N : ℕ} {w' w : (⟨2, ![K, N]⟩ : Shape).Idx → EReal}
    (hc : (⟨2, ![K, N]⟩ : Shape).ShapeCasts ⟨2, ![K, N]⟩) (hw : ∀ (k : Fin K) (q : Fin N), w' (ix2 k q) = w (ix2 k q)) :
    ∀ (k : Fin K) (q : Fin N), shapeCast ⟨2, ![K, N]⟩ w' hc (ix2 k q) = w (ix2 k q) := by
  rw [shapeCast_self]; exact hw

/-! ## Entrywise operations -/

section Entrywise

variable {n : ℕ} {φ φ' : FTy}
variable {a' b' : FVec Ideal ⟨2, ![R, n]⟩ φ'} {a b : FVec Ideal ⟨2, ![B, n]⟩ φ}

theorem IsRows.addf (ha : IsRows t h a' a) (hb : IsRows t h b' b) : IsRows t h (addf a' b') (addf a b) :=
  fun p q => congrArg₂ (· + ·) (ha p q) (hb p q)

theorem IsRows.subf (ha : IsRows t h a' a) (hb : IsRows t h b' b) : IsRows t h (subf a' b') (subf a b) :=
  fun p q => congrArg₂ (· - ·) (ha p q) (hb p q)

theorem IsRows.mulf (ha : IsRows t h a' a) (hb : IsRows t h b' b) : IsRows t h (mulf a' b') (mulf a b) :=
  fun p q => congrArg₂ (· * ·) (ha p q) (hb p q)

theorem IsRows.maximumf (ha : IsRows t h a' a) (hb : IsRows t h b' b) : IsRows t h (maximumf a' b') (maximumf a b) :=
  fun p q => congrArg₂ max (ha p q) (hb p q)

/-- A change of float format on the R-row side only. -/
theorem IsRows.truncf {ψ : FTy} {x : (⟨2, ![B, n]⟩ : Shape).Idx → EReal} (hψ : ψ.bits < φ'.bits) (ha : IsRows t h a' x) :
    IsRows t h (truncf ψ a' hψ) x :=
  fun p q => ha p q

/-- The vector unit's cosine against the host's. -/
theorem IsRows.cos (ha : IsRows t h a' a) : IsRows t h (cos a') (Host.cos a) :=
  fun p q => congrArg Ideal.cos (ha p q)

/-- The vector unit's hyperbolic tangent against the host's. -/
theorem IsRows.tanh (ha : IsRows t h a' a) : IsRows t h (tanh a') (Host.tanh a) :=
  fun p q => congrArg Ideal.tanh (ha p q)

/-- The logistic function against 1 / (1 + exp (−x)) spelt out in the host's operations: on the extended reals the
    logistic function is that quotient by definition, its values at −∞ and +∞ included. -/
theorem IsRows.logistic {one₁ one₂ : FVec Ideal ⟨2, ![B, n]⟩ φ} (h₁ : ∀ i, one₁ i = 1) (h₂ : ∀ i, one₂ i = 1)
    (ha : IsRows t h a' a) :
    IsRows t h (logistic a') (Host.divf one₁ (Idealize.ShloMosaic.addf one₂ (Host.exp (Host.negf a)))) := by
  intro p q
  show Ideal.logistic (a' (ix2 p q)) = Ideal.div (one₁ _) (one₂ _ + Ideal.exp (-(a _)))
  rw [h₁, h₂, ha p q]
  rfl

end Entrywise

/-! ## Constants and broadcasts -/

section Broadcasts

variable {n : ℕ}

/-- A scalar constant spread over the whole array against the same scalar spread over R rows. -/
theorem IsRows.const {φ : FTy} (c : BitVec φ.bits) (hb : (⟨0, ![]⟩ : Shape).BroadcastsInDim ⟨2, ![B, n]⟩ ![]) :
    IsRows t h (broadcast ⟨2, ![R, n]⟩ (Scalar.ofBits (F := Ideal) φ c))
      (broadcastInDim ⟨2, ![B, n]⟩ ![] hb (constant (F := Ideal) ⟨0, ![]⟩ φ c)) := by
  intro p q
  exact (broadcastInDim_apply ![] hb (constant (F := Ideal) ⟨0, ![]⟩ φ c) (ix2 (row t h p) q) ix0 (fun a => a.elim0)).symm

/-- The value of such a constant at any entry. -/
theorem const_apply {φ : FTy} (c : BitVec φ.bits) (hb : (⟨0, ![]⟩ : Shape).BroadcastsInDim ⟨2, ![B, n]⟩ ![])
    (i : (⟨2, ![B, n]⟩ : Shape).Idx) :
    broadcastInDim ⟨2, ![B, n]⟩ ![] hb (constant (F := Ideal) ⟨0, ![]⟩ φ c) i = Ideal.ofBits φ c :=
  broadcastInDim_apply ![] hb (constant (F := Ideal) ⟨0, ![]⟩ φ c) i ix0 (fun a => a.elim0)

/-- One row [1, n] repeated down the whole array (the host's way) against the same row repeated down R rows (the
    vector unit's way). -/
theorem IsRows.rowBroadcast (w : (⟨2, ![1, n]⟩ : Shape).Idx → EReal)
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ w hR) (broadcastInDim ⟨2, ![B, n]⟩ ![0, 1] hB w) := by
  intro p q
  rw [broadcastTo_1b_ab_apply w hR p q]
  refine (broadcastInDim_apply ![0, 1] hB w (ix2 (row t h p) q) (ix2 (0 : Fin 1) q) fun ax => ?_).symm
  match ax with
  | ⟨0, _⟩ => rfl
  | ⟨1, _⟩ =>
    show q.val = if n = 1 then 0 else q.val
    split
    · have := q.isLt; omega
    · rfl

/-- A vector [n] made a row [1, n]: by a cast (the vector unit's way) or by a broadcast along the new axis (the
    host's way), the same row. -/
theorem rowOfVector (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1]) :
    shapeCast ⟨2, ![1, n]⟩ v hc = broadcastInDim ⟨2, ![1, n]⟩ ![1] hb v := by
  funext j
  obtain ⟨u, q, rfl⟩ : ∃ (u : Fin 1) (q : Fin n), j = ix2 u q := ⟨j 0, j 1, eq_ix2 j⟩
  rw [shapeCast_a_1a_apply v hc u q]
  refine (broadcastInDim_apply ![1] hb v (ix2 u q) (ix1 q) fun ax => ?_).symm
  match ax with
  | ⟨0, _⟩ =>
    show q.val = if n = 1 then 0 else q.val
    split
    · have := q.isLt; omega
    · rfl

/-- A bias vector [n] added to every row: made a row and repeated down the whole array by two host broadcasts, against
    cast to a row and repeated down R rows by the vector unit. -/
theorem IsRows.bias (v : (⟨1, ![n]⟩ : Shape).Idx → EReal)
    (hc : (⟨1, ![n]⟩ : Shape).ShapeCasts ⟨2, ![1, n]⟩)
    (hb : (⟨1, ![n]⟩ : Shape).BroadcastsInDim ⟨2, ![1, n]⟩ ![1])
    (hB : (⟨2, ![1, n]⟩ : Shape).BroadcastsInDim ⟨2, ![B, n]⟩ ![0, 1])
    (hR : (⟨2, ![1, n]⟩ : Shape).Broadcasts ⟨2, ![R, n]⟩) :
    IsRows t h (broadcastTo ⟨2, ![R, n]⟩ (shapeCast ⟨2, ![1, n]⟩ v hc) hR)
      (broadcastInDim ⟨2, ![B, n]⟩ ![0, 1] hB (broadcastInDim ⟨2, ![1, n]⟩ ![1] hb v)) := by
  rw [rowOfVector v hc hb]
  exact IsRows.rowBroadcast _ hB hR

/-- One column [B, 1] repeated across n columns (the host's way) against its R rows repeated across n columns (the
    vector unit's way). -/
theorem IsRows.colBroadcast {y' : (⟨2, ![R, 1]⟩ : Shape).Idx → EReal} {y : (⟨2, ![B, 1]⟩ : Shape).Idx → EReal}
    (hy : IsRows t h y' y)
    (hB : (⟨2, ![B, 1]⟩ : Shape).BroadcastsInDim ⟨2, ![B, n]⟩ ![0, 1])
    (hR : (⟨2, ![R, 1]⟩ : Shape).Broadcasts ⟨2, ![R, n]⟩) :
    IsRows t h (broadcastTo ⟨2, ![R, n]⟩ y' hR) (broadcastInDim ⟨2, ![B, n]⟩ ![0, 1] hB y) := by
  intro p q
  have e1 : broadcastTo ⟨2, ![R, n]⟩ y' hR (ix2 p q) = y' (ix2 p (0 : Fin 1)) := by
    refine broadcastTo_apply y' hR (ix2 p q) (ix2 p (0 : Fin 1)) fun ax => ?_
    match ax with
    | ⟨0, _⟩ =>
      show p.val = if R = 1 then 0 else p.val
      split
      · have := p.isLt; omega
      · rfl
    | ⟨1, _⟩ => rfl
  have e2 : broadcastInDim ⟨2, ![B, n]⟩ ![0, 1] hB y (ix2 (row t h p) q) = y (ix2 (row t h p) (0 : Fin 1)) := by
    refine broadcastInDim_apply ![0, 1] hB y (ix2 (row t h p) q) (ix2 (row t h p) (0 : Fin 1)) fun ax => ?_
    match ax with
    | ⟨0, _⟩ =>
      show t * R + p.val = if B = 1 then 0 else t * R + p.val
      split
      · have := p.isLt; omega
      · rfl
    | ⟨1, _⟩ => rfl
  rw [e1, e2]
  exact hy p 0

end Broadcasts

/-! ## A matrix product with a fixed right factor -/

/-- The plain product [B, K] × [K, N] on the host against the matrix unit's product of the R rows with the same right
    factor into a zero accumulator: entry (p, q) of either is the sum over k of (row's entry k) · w(k, q). -/
theorem IsRows.dot {K N : ℕ} {φ₁ φ₂ φ₁' φ₂' : FTy}
    {l' : FVec Ideal ⟨2, ![R, K]⟩ φ₁'} {l : FVec Ideal ⟨2, ![B, K]⟩ φ₁}
    {w' : FVec Ideal ⟨2, ![K, N]⟩ φ₂'} {w : FVec Ideal ⟨2, ![K, N]⟩ φ₂}
    (hl : IsRows t h l' l) (hw : ∀ (k : Fin K) (q : Fin N), w' (ix2 k q) = w (ix2 k q)) :
    IsRows t h (matmul (DotDims.plain R K N) none l' w' (constant ⟨2, ![R, N]⟩ .f32 0x00000000#32))
      (Host.dotGeneral (DotDims.plain B K N) none l w) := by
  intro p q
  rw [PlainProduct.matmul_zero_at R K N l' w' p q, PlainProduct.dotGeneral_at B K N l w (row t h p) q]
  exact Finset.sum_congr rfl fun k _ => congrArg₂ (· * ·) (hl p k) (hw k q)

/-! ## Columns cut out and arrays joined along their columns -/

/-- Columns o … o + m − 1 cut out of the whole array against the same columns cut out of the R rows. -/
theorem IsRows.slice {n m : ℕ} (o : ℕ) {x' : (⟨2, ![R, n]⟩ : Shape).Idx → EReal} {x : (⟨2, ![B, n]⟩ : Shape).Idx → EReal}
    (hx : IsRows t h x' x)
    (hB : (⟨2, ![B, n]⟩ : Shape).Slices ![0, o] ⟨2, ![B, m]⟩) (hR : (⟨2, ![R, n]⟩ : Shape).Slices ![0, o] ⟨2, ![R, m]⟩)
    (hom : o + m ≤ n) :
    IsRows t h (extractStridedSlice ⟨2, ![R, m]⟩ ![0, o] x' hR) (extractStridedSlice ⟨2, ![B, m]⟩ ![0, o] x hB) := by
  intro p q
  have hk : o + q.val < n := by have := q.isLt; omega
  rw [slice2_axis1_apply o x' hR p q ⟨o + q.val, hk⟩ rfl,
    slice2_axis1_apply o x hB (row t h p) q ⟨o + q.val, hk⟩ rfl]
  exact hx p ⟨o + q.val, hk⟩

/-! ### Arrays of rows joined along their columns, read at an entry -/

section Joined

variable {α : Type}

private theorem off_axis {a m N : ℕ} (r : Fin a) (c : Fin N) (c' : Fin m)
    (b : Fin (⟨2, ![a, m]⟩ : Shape).rank) (hb : b.cast (rfl : (⟨2, ![a, m]⟩ : Shape).rank = (⟨2, ![a, N]⟩ : Shape).rank) ≠ 1) :
    ((ix2 r c' : (⟨2, ![a, m]⟩ : Shape).Idx) b).val = ((ix2 r c : (⟨2, ![a, N]⟩ : Shape).Idx) (b.cast rfl)).val := by
  match b with
  | ⟨0, _⟩ => rfl
  | ⟨1, _⟩ => exact absurd rfl hb

variable {a n₁ n₂ n₃ n₄ N : ℕ}

/-- Four arrays joined: a column in the first stretch. -/
theorem joined4_first (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₁ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    0 (by show (0 : ℕ) < 4; omega) ⟨2, ![a, n₁]⟩ x₁ rfl rfl 0 rfl (ix2 r c') (off_axis r c c')
    (by show 0 + c'.val = c.val; omega)

/-- Four arrays joined: a column in the second stretch. -/
theorem joined4_second (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₂ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    1 (by show (1 : ℕ) < 4; omega) ⟨2, ![a, n₂]⟩ x₂ rfl rfl (n₁ + 0) rfl (ix2 r c') (off_axis r c c')
    (by show n₁ + 0 + c'.val = c.val; omega)

/-- Four arrays joined: a column in the third stretch. -/
theorem joined4_third (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₃) (e : n₁ + n₂ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₃ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    2 (by show (2 : ℕ) < 4; omega) ⟨2, ![a, n₃]⟩ x₃ rfl rfl (n₁ + (n₂ + 0)) rfl (ix2 r c') (off_axis r c c')
    (by show n₁ + (n₂ + 0) + c'.val = c.val; omega)

/-- Four arrays joined: a column in the fourth stretch. -/
theorem joined4_fourth (x₁ : (⟨2, ![a, n₁]⟩ : Shape).Idx → α) (x₂ : (⟨2, ![a, n₂]⟩ : Shape).Idx → α)
    (x₃ : (⟨2, ![a, n₃]⟩ : Shape).Idx → α) (x₄ : (⟨2, ![a, n₄]⟩ : Shape).Idx → α)
    (hc : Shape.Concatenates [⟨2, ![a, n₁]⟩, ⟨2, ![a, n₂]⟩, ⟨2, ![a, n₃]⟩, ⟨2, ![a, n₄]⟩] ⟨2, ![a, N]⟩ 1)
    (r : Fin a) (c : Fin N) (c' : Fin n₄) (e : n₁ + n₂ + n₃ + c'.val = c.val) :
    concatenate ⟨2, ![a, N]⟩ 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
      = x₄ (ix2 r c') :=
  concatenate_apply_piece 1 [⟨⟨2, ![a, n₁]⟩, x₁⟩, ⟨⟨2, ![a, n₂]⟩, x₂⟩, ⟨⟨2, ![a, n₃]⟩, x₃⟩, ⟨⟨2, ![a, n₄]⟩, x₄⟩] hc (ix2 r c)
    3 (by show (3 : ℕ) < 4; omega) ⟨2, ![a, n₄]⟩ x₄ rfl rfl (n₁ + (n₂ + (n₃ + 0))) rfl (ix2 r c') (off_axis r c c')
    (by show n₁ + (n₂ + (n₃ + 0)) + c'.val = c.val; omega)

/-- Two arrays joined: a column in the first stretch. -/
theorem joined2_first (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₁) (e : c'.val = c.val) :
    concatenate ⟨2, ![a, N]⟩ 1 [⟨⟨2, ![a, n₁]⟩, x₁⟩, ⟨⟨2, ![a, n₂]⟩, x₂⟩] hc (ix2 r c) = x₁ (ix2 r c') :=
  concatenate_apply_piece 1 [⟨⟨2, ![a, n₁]⟩, x₁⟩, ⟨⟨2, ![a, n₂]⟩, x₂⟩] hc (ix2 r c)
    0 (by show (0 : ℕ) < 2; omega) ⟨2, ![a, n₁]⟩ x₁ rfl rfl 0 rfl (ix2 r c') (off_axis r c c')
    (by show 0 + c'.val = c.val; omega)

/-- Two arrays joined: a column in the second stretch. -/
theorem joined2_second (x₁ : (⟨2, ![a, n₁]⟩ : Shape).Idx → α) (x₂ : (⟨2, ![a, n₂]⟩ : Shape).Idx → α)
    (hc : Shape.Concatenates [⟨2, ![a, n₁]⟩, ⟨2, ![a, n₂]⟩] ⟨2, ![a, N]⟩ 1)
    (r : Fin a) (c : Fin N) (c' : Fin n₂) (e : n₁ + c'.val = c.val) :
    concatenate ⟨2, ![a, N]⟩ 1 [⟨⟨2, ![a, n₁]⟩, x₁⟩, ⟨⟨2, ![a, n₂]⟩, x₂⟩] hc (ix2 r c) = x₂ (ix2 r c') :=
  concatenate_apply_piece 1 [⟨⟨2, ![a, n₁]⟩, x₁⟩, ⟨⟨2, ![a, n₂]⟩, x₂⟩] hc (ix2 r c)
    1 (by show (1 : ℕ) < 2; omega) ⟨2, ![a, n₂]⟩ x₂ rfl rfl (n₁ + 0) rfl (ix2 r c') (off_axis r c c')
    (by show n₁ + 0 + c'.val = c.val; omega)

end Joined

/-- Four arrays joined along their columns: the R rows of the joined array are the join of the R rows of each. -/
theorem IsRows.joined4 {n₁ n₂ n₃ n₄ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    {x₃' : (⟨2, ![R, n₃]⟩ : Shape).Idx → EReal} {x₃ : (⟨2, ![B, n₃]⟩ : Shape).Idx → EReal}
    {x₄' : (⟨2, ![R, n₄]⟩ : Shape).Idx → EReal} {x₄ : (⟨2, ![B, n₄]⟩ : Shape).Idx → EReal}
    (h₁ : IsRows t h x₁' x₁) (h₂ : IsRows t h x₂' x₂) (h₃ : IsRows t h x₃' x₃) (h₄ : IsRows t h x₄' x₄)
    (hN : n₁ + n₂ + n₃ + n₄ = N)
    (hR : Shape.Concatenates [⟨2, ![R, n₁]⟩, ⟨2, ![R, n₂]⟩, ⟨2, ![R, n₃]⟩, ⟨2, ![R, n₄]⟩] ⟨2, ![R, N]⟩ 1)
    (hB : Shape.Concatenates [⟨2, ![B, n₁]⟩, ⟨2, ![B, n₂]⟩, ⟨2, ![B, n₃]⟩, ⟨2, ![B, n₄]⟩] ⟨2, ![B, N]⟩ 1) :
    IsRows t h
      (concatenate ⟨2, ![R, N]⟩ 1 [⟨⟨2, ![R, n₁]⟩, x₁'⟩, ⟨⟨2, ![R, n₂]⟩, x₂'⟩, ⟨⟨2, ![R, n₃]⟩, x₃'⟩, ⟨⟨2, ![R, n₄]⟩, x₄'⟩] hR)
      (concatenate ⟨2, ![B, N]⟩ 1 [⟨⟨2, ![B, n₁]⟩, x₁⟩, ⟨⟨2, ![B, n₂]⟩, x₂⟩, ⟨⟨2, ![B, n₃]⟩, x₃⟩, ⟨⟨2, ![B, n₄]⟩, x₄⟩] hB) := by
  intro p q
  have hq := q.isLt
  by_cases c₁ : q.val < n₁
  · rw [joined4_first x₁' x₂' x₃' x₄' hR p q ⟨q.val, c₁⟩ rfl, joined4_first x₁ x₂ x₃ x₄ hB (row t h p) q ⟨q.val, c₁⟩ rfl]
    exact h₁ p _
  · by_cases c₂ : q.val < n₁ + n₂
    · have k : q.val - n₁ < n₂ := by omega
      rw [joined4_second x₁' x₂' x₃' x₄' hR p q ⟨q.val - n₁, k⟩ (by show n₁ + (q.val - n₁) = q.val; omega),
        joined4_second x₁ x₂ x₃ x₄ hB (row t h p) q ⟨q.val - n₁, k⟩ (by show n₁ + (q.val - n₁) = q.val; omega)]
      exact h₂ p _
    · by_cases c₃ : q.val < n₁ + n₂ + n₃
      · have k : q.val - (n₁ + n₂) < n₃ := by omega
        rw [joined4_third x₁' x₂' x₃' x₄' hR p q ⟨q.val - (n₁ + n₂), k⟩ (by show n₁ + n₂ + (q.val - (n₁ + n₂)) = q.val; omega),
          joined4_third x₁ x₂ x₃ x₄ hB (row t h p) q ⟨q.val - (n₁ + n₂), k⟩ (by show n₁ + n₂ + (q.val - (n₁ + n₂)) = q.val; omega)]
        exact h₃ p _
      · have k : q.val - (n₁ + n₂ + n₃) < n₄ := by omega
        rw [joined4_fourth x₁' x₂' x₃' x₄' hR p q ⟨q.val - (n₁ + n₂ + n₃), k⟩ (by show n₁ + n₂ + n₃ + (q.val - (n₁ + n₂ + n₃)) = q.val; omega),
          joined4_fourth x₁ x₂ x₃ x₄ hB (row t h p) q ⟨q.val - (n₁ + n₂ + n₃), k⟩ (by show n₁ + n₂ + n₃ + (q.val - (n₁ + n₂ + n₃)) = q.val; omega)]
        exact h₄ p _

/-- Two arrays joined along their columns: the R rows of the joined array are the join of the R rows of each. -/
theorem IsRows.joined2 {n₁ n₂ N : ℕ}
    {x₁' : (⟨2, ![R, n₁]⟩ : Shape).Idx → EReal} {x₁ : (⟨2, ![B, n₁]⟩ : Shape).Idx → EReal}
    {x₂' : (⟨2, ![R, n₂]⟩ : Shape).Idx → EReal} {x₂ : (⟨2, ![B, n₂]⟩ : Shape).Idx → EReal}
    (h₁ : IsRows t h x₁' x₁) (h₂ : IsRows t h x₂' x₂) (hN : n₁ + n₂ = N)
    (hR : Shape.Concatenates [⟨2, ![R, n₁]⟩, ⟨2, ![R, n₂]⟩] ⟨2, ![R, N]⟩ 1)
    (hB : Shape.Concatenates [⟨2, ![B, n₁]⟩, ⟨2, ![B, n₂]⟩] ⟨2, ![B, N]⟩ 1) :
    IsRows t h (concatenate ⟨2, ![R, N]⟩ 1 [⟨⟨2, ![R, n₁]⟩, x₁'⟩, ⟨⟨2, ![R, n₂]⟩, x₂'⟩] hR)
      (concatenate ⟨2, ![B, N]⟩ 1 [⟨⟨2, ![B, n₁]⟩, x₁⟩, ⟨⟨2, ![B, n₂]⟩, x₂⟩] hB) := by
  intro p q
  have hq := q.isLt
  by_cases c₁ : q.val < n₁
  · rw [joined2_first x₁' x₂' hR p q ⟨q.val, c₁⟩ rfl, joined2_first x₁ x₂ hB (row t h p) q ⟨q.val, c₁⟩ rfl]
    exact h₁ p _
  · have k : q.val - n₁ < n₂ := by omega
    rw [joined2_second x₁' x₂' hR p q ⟨q.val - n₁, k⟩ (by show n₁ + (q.val - n₁) = q.val; omega),
      joined2_second x₁ x₂ hB (row t h p) q ⟨q.val - n₁, k⟩ (by show n₁ + (q.val - n₁) = q.val; omega)]
    exact h₂ p _

/-! ## Two arrays as the two slabs of a rank-3 array -/

section Slabs

variable {α : Type} {a n : ℕ}

/-- Two [a, n] arrays as the two slabs of a [2, a, n] array. -/
def slabs (f g : (⟨2, ![a, n]⟩ : Shape).Idx → α) : (⟨3, ![2, a, n]⟩ : Shape).Idx → α :=
  fun y => if (y 0).val = 0 then f (ix2 (⟨(y 1).val, (y 1).isLt⟩ : Fin a) (⟨(y 2).val, (y 2).isLt⟩ : Fin n))
    else g (ix2 (⟨(y 1).val, (y 1).isLt⟩ : Fin a) (⟨(y 2).val, (y 2).isLt⟩ : Fin n))

theorem slabs_zero (f g : (⟨2, ![a, n]⟩ : Shape).Idx → α) (y : (⟨3, ![2, a, n]⟩ : Shape).Idx)
    (p : Fin a) (q : Fin n) (e0 : (y 0).val = 0) (e1 : (y 1).val = p.val) (e2 : (y 2).val = q.val) :
    slabs f g y = f (ix2 p q) := by
  unfold slabs
  rw [if_pos e0]
  exact congrArg f (funext fun b => match b with | ⟨0, _⟩ => Fin.ext e1 | ⟨1, _⟩ => Fin.ext e2)

theorem slabs_one (f g : (⟨2, ![a, n]⟩ : Shape).Idx → α) (y : (⟨3, ![2, a, n]⟩ : Shape).Idx)
    (p : Fin a) (q : Fin n) (e0 : (y 0).val = 1) (e1 : (y 1).val = p.val) (e2 : (y 2).val = q.val) :
    slabs f g y = g (ix2 p q) := by
  unfold slabs
  rw [if_neg (by omega)]
  exact congrArg g (funext fun b => match b with | ⟨0, _⟩ => Fin.ext e1 | ⟨1, _⟩ => Fin.ext e2)

/-- Flattening the two slabs into one [2·a, n] array is the first array with the second joined below it: row r of the
    flattened array is row r of slab 0 for r < a and row r − a of slab 1 otherwise, in either reading. -/
theorem flatten_slabs {a2 : ℕ} (ha2 : a2 = a + a) (f g : (⟨2, ![a, n]⟩ : Shape).Idx → α)
    (hc : (⟨3, ![2, a, n]⟩ : Shape).ShapeCasts ⟨2, ![a2, n]⟩)
    (hj : Shape.Concatenates [⟨2, ![a, n]⟩, ⟨2, ![a, n]⟩] ⟨2, ![a2, n]⟩ 0) :
    shapeCast ⟨2, ![a2, n]⟩ (slabs f g) hc = concatenate ⟨2, ![a2, n]⟩ 0 [⟨⟨2, ![a, n]⟩, f⟩, ⟨⟨2, ![a, n]⟩, g⟩] hj := by
  subst ha2
  funext j
  obtain ⟨r, k, rfl⟩ : ∃ (r : Fin (a + a)) (k : Fin n), j = ix2 r k := ⟨j 0, j 1, eq_ix2 j⟩
  have off1 : ∀ (r' : Fin a) (b : Fin (⟨2, ![a, n]⟩ : Shape).rank),
      b.cast (rfl : (⟨2, ![a, n]⟩ : Shape).rank = (⟨2, ![a + a, n]⟩ : Shape).rank) ≠ 0 →
      ((ix2 r' k : (⟨2, ![a, n]⟩ : Shape).Idx) b).val = ((ix2 r k : (⟨2, ![a + a, n]⟩ : Shape).Idx) (b.cast rfl)).val := by
    intro r' b hb
    match b with
    | ⟨0, _⟩ => exact absurd rfl hb
    | ⟨1, _⟩ => rfl
  by_cases hr : r.val < a
  · have e1 : shapeCast ⟨2, ![a + a, n]⟩ (slabs f g) hc (ix2 r k) = slabs f g (ix3 (0 : Fin 2) (⟨r.val, hr⟩ : Fin a) k) :=
      shapeCast_apply (slabs f g) hc _ _ (by
        rw [Shape.rowMajor_val_three, Shape.rowMajor_val_two]
        show (0 * a + r.val) * n + k.val = r.val * n + k.val
        rw [Nat.zero_mul, Nat.zero_add])
    rw [e1, slabs_zero f g _ ⟨r.val, hr⟩ k rfl rfl rfl]
    exact (concatenate_apply_piece 0 [⟨⟨2, ![a, n]⟩, f⟩, ⟨⟨2, ![a, n]⟩, g⟩] hj (ix2 r k)
      0 (by show (0 : ℕ) < 2; omega) ⟨2, ![a, n]⟩ f rfl rfl 0 rfl (ix2 ⟨r.val, hr⟩ k) (off1 _)
      (by show 0 + r.val = r.val; omega)).symm
  · have hr' : r.val - a < a := by have := r.isLt; omega
    have e1 : shapeCast ⟨2, ![a + a, n]⟩ (slabs f g) hc (ix2 r k) = slabs f g (ix3 (1 : Fin 2) (⟨r.val - a, hr'⟩ : Fin a) k) :=
      shapeCast_apply (slabs f g) hc _ _ (by
        rw [Shape.rowMajor_val_three, Shape.rowMajor_val_two]
        show (1 * a + (r.val - a)) * n + k.val = r.val * n + k.val
        have : 1 * a + (r.val - a) = r.val := by omega
        rw [this])
    rw [e1, slabs_one f g _ ⟨r.val - a, hr'⟩ k rfl rfl rfl]
    exact (concatenate_apply_piece 0 [⟨⟨2, ![a, n]⟩, f⟩, ⟨⟨2, ![a, n]⟩, g⟩] hj (ix2 r k)
      1 (by show (1 : ℕ) < 2; omega) ⟨2, ![a, n]⟩ g rfl rfl (a + 0) rfl (ix2 ⟨r.val - a, hr'⟩ k) (off1 _)
      (by show a + 0 + (r.val - a) = r.val; omega)).symm

end Slabs

end Idealize.ShloMosaic.RowBlock

end
-- ==== Proof.LibRowSelect.lean ====
/-
  Rows t·R … t·R + R − 1 of a [B, n] array through a comparison, a selection by a mask, and the leaky rectifier
  v ↦ v where v ≥ 0 and s · v elsewhere (the mask and both branches are computed entry by entry, so the R rows of the
  result are the result of the R rows). The whole-array side is written in the host's operations (scalar constants
  spread by broadcast_in_dim), the R-row side in the vector unit's (a scalar spread by vector.broadcast).
-/
import proofs.«178218_j58016418234670_1_alg».proof.Proof.LibRowBlock

noncomputable section

namespace Idealize.ShloMosaic.RowBlock

open Idealize.ShloMosaic Idealize.ShloMosaic.ValueIdx

variable {B R n : ℕ} {t : ℕ} {h : t * R + R ≤ B}

/-- A mask [R, n] is rows t·R … of a mask [B, n]. -/
def MaskRows (t : ℕ) (h : t * R + R ≤ B) (c' : IVec ⟨2, ![R, n]⟩ 1) (c : IVec ⟨2, ![B, n]⟩ 1) : Prop :=
  ∀ (p : Fin R) (q : Fin n), c' (ix2 p q) = c (ix2 (row t h p) q)

/-- Comparing rows gives the rows of the comparison. -/
theorem IsRows.cmpf (pred : CmpFPredicate) {a' b' : FVec Ideal ⟨2, ![R, n]⟩ .f32} {a b : FVec Ideal ⟨2, ![B, n]⟩ .f32}
    (ha : IsRows t h a' a) (hb : IsRows t h b' b) :
    MaskRows t h (Idealize.ShloMosaic.cmpf pred a' b') (Idealize.ShloMosaic.cmpf pred a b) :=
  fun p q => congrArg₂ (FloatOps.cmpf pred) (ha p q) (hb p q)

/-- Selecting between rows by the rows of a mask gives the rows of the selection. -/
theorem IsRows.select {c' : IVec ⟨2, ![R, n]⟩ 1} {c : IVec ⟨2, ![B, n]⟩ 1}
    {a' b' : (⟨2, ![R, n]⟩ : Shape).Idx → EReal} {a b : (⟨2, ![B, n]⟩ : Shape).Idx → EReal}
    (hc : MaskRows t h c' c) (ha : IsRows t h a' a) (hb : IsRows t h b' b) :
    IsRows t h (Idealize.ShloMosaic.select c' a' b') (Idealize.ShloMosaic.select c a b) := by
  intro p q
  show Scalar.select (c' (ix2 p q)) (a' (ix2 p q)) (b' (ix2 p q)) = Scalar.select (c _) (a _) (b _)
  rw [hc p q, ha p q, hb p q]

/-- The leaky rectifier with threshold word z and slope word s: rows in, rows out. -/
theorem IsRows.lrelu {a' : FVec Ideal ⟨2, ![R, n]⟩ .f32} {a : FVec Ideal ⟨2, ![B, n]⟩ .f32} (ha : IsRows t h a' a)
    (z s : BitVec 32) (hb : (⟨0, ![]⟩ : Shape).BroadcastsInDim ⟨2, ![B, n]⟩ ![]) :
    IsRows t h
      (Idealize.ShloMosaic.select
        (Idealize.ShloMosaic.cmpf .oge a' (broadcast ⟨2, ![R, n]⟩ (Scalar.ofBits (F := Ideal) .f32 z))) a'
        (Idealize.ShloMosaic.mulf (broadcast ⟨2, ![R, n]⟩ (Scalar.ofBits (F := Ideal) .f32 s)) a'))
      (Idealize.ShloMosaic.select
        (Idealize.ShloMosaic.cmpf .oge a (broadcastInDim ⟨2, ![B, n]⟩ ![] hb (constant (F := Ideal) ⟨0, ![]⟩ .f32 z))) a
        (Idealize.ShloMosaic.mulf (broadcastInDim ⟨2, ![B, n]⟩ ![] hb (constant (F := Ideal) ⟨0, ![]⟩ .f32 s)) a)) :=
  IsRows.select (IsRows.cmpf .oge ha (IsRows.const (φ := .f32) z hb)) ha (IsRows.mulf (IsRows.const (φ := .f32) s hb) ha)

end Idealize.ShloMosaic.RowBlock

end
-- ==== Proof.LibGroupSum.lean ====
/-
  Two facts about sums along an axis, for a program that works through a [B, ·] array R rows at a time and a program
  that works on the whole array at once, both on the extended reals.

  The grouping product. A [B, G, D] array x, flattened to [B, G·D], has entry (r, g·D + d) = x(r, g, d). Let m be the
  [G·D, D] matrix with m(j, d) = 1 when j mod D = d and 0 otherwise. Entry (p, d) of the product of the R rows of the
  flattened array with m is the sum over j of x'(p, j) · m(j, d); the terms with j mod D ≠ d are x'(p, j) · 0 = 0, the
  others are x'(p, j) · 1 = x'(p, j) (both hold for every extended real, the infinite ones included), and the indices j
  with j mod D = d are exactly g·D + d for g < G. So the product is the sum over g of x(row p, g, d): the R rows of
  the sum of x over its middle axis.

  The row sums kept as a column. If x' is R rows of x, the column [R, 1] of the row sums of x' is the same R rows of the
  column [B, 1] of the row sums of x.
-/
import proofs.«178218_j58016418234670_1_alg».proof.Proof.LibRowBlock

noncomputable section

open scoped BigOperators

namespace Idealize.ShloMosaic.RowBlock

open Idealize.ShloMosaic Idealize.ShloMosaic.ValueIdx

/-! ## The grouping product -/

/-- The position g·D + d of entry (g, d) in a flattened [G, D] array is below G·D. -/
theorem group_index_lt {G D : ℕ} (g : Fin G) (d : Fin D) : g.val * D + d.val < G * D :=
  calc g.val * D + d.val < g.val * D + D := Nat.add_lt_add_left d.isLt _
    _ = (g.val + 1) * D := (Nat.succ_mul _ _).symm
    _ ≤ G * D := Nat.mul_le_mul_right _ g.isLt

/-- A sum over j < G·D of a(j) · [j mod D = d] is the sum over g < G of a(g·D + d): a term with j mod D ≠ d is
    a(j) · 0 = 0, a term with j mod D = d is a(j) · 1 = a(j), and j ↦ (j div D, j mod D) pairs the positions below G·D
    with the pairs (g, d'). On the extended reals b · 1 = b and b · 0 = 0 hold for every b, the infinite ones included, so nothing is asked of a. -/
theorem sum_mul_indicator_mod {G D : ℕ} (a : Fin (G * D) → EReal) (d : Fin D) :
    ∑ j : Fin (G * D), a j * (if j.val % D = d.val then (1 : EReal) else 0)
      = ∑ g : Fin G, a ⟨g.val * D + d.val, group_index_lt g d⟩ := by
  have hterm : ∀ j : Fin (G * D), a j * (if j.val % D = d.val then (1 : EReal) else 0) = if j.val % D = d.val then a j else 0 := by
    intro j
    split
    · exact mul_one _
    · exact mul_zero _
  rw [Finset.sum_congr rfl fun j _ => hterm j, ← Equiv.sum_comp finProdFinEquiv, Fintype.sum_prod_type]
  refine Finset.sum_congr rfl fun g _ => ?_
  have hval : ∀ d' : Fin D, (finProdFinEquiv (g, d')).val = d'.val + D * g.val := fun _ => rfl
  have hinner : ∀ d' : Fin D,
      (if (finProdFinEquiv (g, d')).val % D = d.val then a (finProdFinEquiv (g, d')) else 0)
        = if d' = d then a (finProdFinEquiv (g, d')) else 0 := by
    intro d'
    have hm : (finProdFinEquiv (g, d')).val % D = d'.val := by
      rw [hval, Nat.add_mul_mod_self_left]; exact Nat.mod_eq_of_lt d'.isLt
    by_cases hd : d' = d
    · rw [if_pos hd, if_pos (by rw [hm, hd])]
    · rw [if_neg hd, if_neg (by rw [hm]; exact fun e => hd (Fin.ext e))]
  rw [Finset.sum_congr rfl fun d' _ => hinner d']
  refine (Fintype.sum_ite_eq' d fun d' => a (finProdFinEquiv (g, d'))).trans ?_
  exact congrArg a (Fin.ext (by rw [hval]; show d.val + D * g.val = g.val * D + d.val; rw [Nat.mul_comm, Nat.add_comm]))

/-- The matrix unit's product of the R rows of a flattened [B, G, D] array with the grouping matrix, into a zero
    accumulator, against the host's sum of the array over its middle axis from the scalar 0: entry (p, d) of either is
    the sum over g of x(row p, g, d). The R rows are given entry by entry: x'(p, g·D + d) = x(row p, g, d). -/
theorem IsRows.groupSum {B R G D N : ℕ} {t : ℕ} {h : t * R + R ≤ B} {φ' φg : FTy} (hN : N = G * D)
    {x' : FVec Ideal ⟨2, ![R, N]⟩ φ'} {x3 : FVec Ideal ⟨3, ![B, G, D]⟩ .f32}
    (hx : ∀ (p : Fin R) (g : Fin G) (d : Fin D) (j : Fin N), j.val = g.val * D + d.val →
      x' (ix2 p j) = x3 (ix3 (row t h p) g d))
    {gm : FVec Ideal ⟨2, ![N, D]⟩ φg}
    (hg : ∀ (j : Fin N) (d : Fin D), gm (ix2 j d) = if j.val % D = d.val then (1 : EReal) else 0)
    (hr : (⟨3, ![B, G, D]⟩ : Shape).ReducesTo [1] ⟨2, ![B, D]⟩) (h0 : 0 < (⟨0, ![]⟩ : Shape).numel) :
    IsRows t h (matmul (DotDims.plain R N D) none x' gm (constant ⟨2, ![R, D]⟩ .f32 0x00000000#32))
      (Host.reduceAdd (F := Ideal) x3 (constant (F := Ideal) ⟨0, ![]⟩ .f32 0x00000000#32) hr h0) := by
  subst hN
  intro p d
  have hR : (⟨3, ![B, G, D]⟩ : Shape).Reduces [1] ⟨2, ![B, D]⟩ := ⟨hr.1, Nat.two_pos, hr.2⟩
  have hlift : ∀ g : Fin G, hR.lift (ix2 (row t h p) d) g = ix3 (row t h p) g d := by
    intro g
    funext c
    apply Fin.ext
    match c with
    | ⟨0, _⟩ => rfl
    | ⟨1, _⟩ => rfl
    | ⟨2, _⟩ => rfl
  have hhost : Host.reduceAdd (F := Ideal) x3 (constant (F := Ideal) ⟨0, ![]⟩ .f32 0x00000000#32) hr h0 (ix2 (row t h p) d)
      = ∑ g : Fin G, x3 (ix3 (row t h p) g d) := by
    refine (hostReduceAdd_apply x3 _ hr h0 (ix2 (row t h p) d)).trans ?_
    refine (Ideal.hostReduceAdd_single hr hR x3 _ (ix2 (row t h p) d)).trans ?_
    show Ideal.ofBits .f32 0x00000000#32 + ∑ g : Fin G, x3 (hR.lift (ix2 (row t h p) d) g) = _
    rw [Ideal.ofBits_zero_f32, zero_add]
    exact Finset.sum_congr rfl fun g _ => congrArg x3 (hlift g)
  rw [hhost, PlainProduct.matmul_zero_at R (G * D) D x' gm p d,
    Finset.sum_congr rfl fun (j : Fin (G * D)) _ => congrArg (x' (ix2 p j) * ·) (hg j d)]
  refine (sum_mul_indicator_mod (fun j => x' (ix2 p j)) d).trans ?_
  exact Finset.sum_congr rfl fun g _ => hx p g d _ rfl

/-! ## Row sums kept as a column -/

section Column

variable {α : Type}

/-- An [a] array cast to a column [a, 1] reads, at (i, u), the operand at i, whatever the unit coordinate u. -/
theorem shapeCast_a_a1_apply {a : ℕ} (x : (⟨1, ![a]⟩ : Shape).Idx → α) (hc : (⟨1, ![a]⟩ : Shape).ShapeCasts ⟨2, ![a, 1]⟩)
    (i : Fin a) (u : Fin 1) : shapeCast ⟨2, ![a, 1]⟩ x hc (ix2 i u) = x (ix1 i) :=
  shapeCast_apply x hc _ _ (by
    have hu : u.val = 0 := by omega
    rw [Shape.rowMajor_val_two, Shape.rowMajor_val_one]
    show i.val = i.val * 1 + u.val
    rw [hu, Nat.mul_one, Nat.add_zero])

/-- An [a] array broadcast to a column [a, 1] along its own axis (the new axis is the unit one) reads, at (i, u), the
    operand at i. -/
theorem broadcastInDim_a_a1_apply {a : ℕ} (x : (⟨1, ![a]⟩ : Shape).Idx → α)
    (hb : (⟨1, ![a]⟩ : Shape).BroadcastsInDim ⟨2, ![a, 1]⟩ ![0]) (i : Fin a) (u : Fin 1) :
    broadcastInDim ⟨2, ![a, 1]⟩ ![0] hb x (ix2 i u) = x (ix1 i) := by
  refine broadcastInDim_apply ![0] hb x (ix2 i u) (ix1 i) fun ax => ?_
  match ax with
  | ⟨0, _⟩ =>
    show i.val = if a = 1 then 0 else i.val
    split
    · have := i.isLt; omega
    · rfl

end Column

/-- The column [R, 1] of the row sums of the R rows (the vector unit's sum along axis 1 from the zero pattern, cast to a
    column) against the R rows of the column [B, 1] of the row sums of the whole array (the host's sum over axis 1 from
    the scalar 0, broadcast to a column): entry (p, 0) of either is the sum over k of x(row p, k). -/
theorem IsRows.rowSumKeepdims {B R n : ℕ} {t : ℕ} {h : t * R + R ≤ B}
    {x' : FVec Ideal ⟨2, ![R, n]⟩ .f32} {x : FVec Ideal ⟨2, ![B, n]⟩ .f32} (hx : IsRows t h x' x)
    (hred : (⟨2, ![R, n]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩)
    (hr : (⟨2, ![B, n]⟩ : Shape).ReducesTo [1] ⟨1, ![B]⟩) (h0 : 0 < (⟨0, ![]⟩ : Shape).numel)
    (hb : (⟨1, ![B]⟩ : Shape).BroadcastsInDim ⟨2, ![B, 1]⟩ ![0]) :
    IsRows t h (shapeCast ⟨2, ![R, 1]⟩ (multiReduction .add [1] ⟨1, ![R]⟩ x' 0x00000000#32 hred hφ hacc) hc)
      (broadcastInDim ⟨2, ![B, 1]⟩ ![0] hb
        (Host.reduceAdd (F := Ideal) x (constant (F := Ideal) ⟨0, ![]⟩ .f32 0x00000000#32) hr h0)) := by
  intro p u
  have hR : (⟨2, ![B, n]⟩ : Shape).Reduces [1] ⟨1, ![B]⟩ := ⟨hr.1, Nat.one_pos, hr.2⟩
  have e1 : ∀ k : Fin n, hR.lift (ix1 (row t h p)) k = ix2 (row t h p) k := by
    intro k
    funext c
    apply Fin.ext
    match c with
    | ⟨0, _⟩ => rfl
    | ⟨1, _⟩ => rfl
  have e2 : ∀ k : Fin n, hred.lift (ix1 p) k = ix2 p k := by
    intro k
    funext c
    apply Fin.ext
    match c with
    | ⟨0, _⟩ => rfl
    | ⟨1, _⟩ => rfl
  refine (shapeCast_a_a1_apply _ hc p u).trans ?_
  refine Eq.trans ?_ (broadcastInDim_a_a1_apply _ hb (row t h p) u).symm
  refine (Ideal.multiReduction_add_single x' 0x00000000#32 hred hφ hacc (ix1 p)).trans ?_
  refine Eq.symm ((hostReduceAdd_apply x _ hr h0 (ix1 (row t h p))).trans ?_)
  refine (Ideal.hostReduceAdd_single hr hR x _ (ix1 (row t h p))).trans ?_
  show Ideal.ofBits .f32 0x00000000#32 + ∑ k : Fin n, x (hR.lift (ix1 (row t h p)) k) = ∑ k : Fin n, x' (hred.lift (ix1 p) k)
  rw [Ideal.ofBits_zero_f32, zero_add]
  exact Finset.sum_congr rfl fun k _ => by rw [e1 k, e2 k]; exact (hx p k).symm

end Idealize.ShloMosaic.RowBlock

end
-- ==== Proof.KChain.lean ====
/-
  One grid point's block of the kernel's result is the corresponding 2048 rows of the value the reference computes.
  Every step of the body works on each row by itself, so the argument goes stage by stage: if the block's inputs are
  rows 2048 t … of the whole arrays, so is each intermediate — x·W + b by the matrix-product and bias-row lemmas, the
  leaky rectifier by the comparison / selection lemmas — down to the last layer's column. The pairwise-interaction
  column is separate (see the interaction module); here are the four layers and the final sum of three columns.
  The pairwise-interaction column: the block's rows times the 0/1 grouping matrix sum, for each of the 64 embedding
  coordinates d, the seventeen features' entries at d — the same numbers the reference adds over its middle axis —,
  and likewise for the squares; squaring, subtracting, adding over d and halving are row by row again.
-/
import proofs.«178218_j58016418234670_1_alg».proof.Proof.Gen.KernelIdeal
import proofs.«178218_j58016418234670_1_alg».proof.Proof.Gen.KernelIdeal.Skeleton
import proofs.«178218_j58016418234670_1_alg».proof.Proof.Gen.ReferenceIdeal
import proofs.«178218_j58016418234670_1_alg».proof.Proof.Spec
import proofs.«178218_j58016418234670_1_alg».proof.Proof.LibRowSelect
import proofs.«178218_j58016418234670_1_alg».proof.Proof.LibGroupSum

noncomputable section

open Idealize.ShloMosaic Idealize.ShloMosaic.ValueIdx Idealize.ShloMosaic.RowBlock

namespace Cert.Bridge

open Cert.KernelIdeal Cert.KernelIdeal.Gen

/-- x · W + b on R rows against the whole array: rows in, rows out. -/
theorem affine {B R K N : ℕ} {t : ℕ} {h : t * R + R ≤ B} {φ₁ φ₁' φ₂ φ₂' : FTy}
    {l' : FVec Ideal ⟨2, ![R, K]⟩ φ₁'} {l : FVec Ideal ⟨2, ![B, K]⟩ φ₁} (hl : IsRows t h l' l)
    {w' : FVec Ideal ⟨2, ![K, N]⟩ φ₂'} {w : FVec Ideal ⟨2, ![K, N]⟩ φ₂} (hw : ∀ (k : Fin K) (q : Fin N), w' (ix2 k q) = w (ix2 k q))
    (v : FVec Ideal ⟨1, ![N]⟩ .f32)
    (hc : (⟨1, ![N]⟩ : Shape).ShapeCasts ⟨2, ![1, N]⟩) (hb : (⟨1, ![N]⟩ : Shape).BroadcastsInDim ⟨2, ![1, N]⟩ ![1])
    (hB : (⟨2, ![1, N]⟩ : Shape).BroadcastsInDim ⟨2, ![B, N]⟩ ![0, 1]) (hR : (⟨2, ![1, N]⟩ : Shape).Broadcasts ⟨2, ![R, N]⟩) :
    IsRows t h
      (addf (matmul (DotDims.plain R K N) none l' w' (constant ⟨2, ![R, N]⟩ .f32 0x00000000#32))
        (broadcastTo ⟨2, ![R, N]⟩ (shapeCast ⟨2, ![1, N]⟩ v hc) hR))
      (addf (Host.dotGeneral (DotDims.plain B K N) none l w)
        (broadcastInDim ⟨2, ![B, N]⟩ ![0, 1] hB (broadcastInDim ⟨2, ![1, N]⟩ ![1] hb v))) :=
  IsRows.addf (IsRows.dot hl hw) (IsRows.bias v hc hb hB hR)

section Layers

variable {t : ℕ} {h : t * 2048 + 2048 ≤ 131072}
variable (f : Cert.Spec.Arr Ideal Cert.ReferenceIdeal.S131072x17x64 .f32)
variable (w1 : Cert.Spec.Arr Ideal Cert.ReferenceIdeal.S1088x256 .f32) (b1 : Cert.Spec.Arr Ideal Cert.ReferenceIdeal.S256 .f32)
variable (w2 : Cert.Spec.Arr Ideal Cert.ReferenceIdeal.S256x256 .f32) (b2 : Cert.Spec.Arr Ideal Cert.ReferenceIdeal.S256 .f32)
variable (w3 : Cert.Spec.Arr Ideal Cert.ReferenceIdeal.S256x128 .f32) (b3 : Cert.Spec.Arr Ideal Cert.ReferenceIdeal.S128 .f32)
variable (w4 : Cert.Spec.Arr Ideal Cert.ReferenceIdeal.S128x1 .f32) (b4 : Cert.Spec.Arr Ideal Cert.ReferenceIdeal.S1 .f32)
variable (x0 : FVec Ideal S2048x1088 .bf16)

/-- The looked-up features flattened to [131072, 1088], as the reference flattens them. -/
abbrev flat : FVec Ideal Cert.ReferenceIdeal.S131072x1088 .f32 :=
  shapeCast Cert.ReferenceIdeal.S131072x1088 f Cert.ReferenceIdeal.Facts₀.shapeCasts_S131072x17x64_S131072x1088

/-- The kernel's weight and bias operands as its host code prepares them: a change of format, a vector made a row. -/
abbrev W1 : FVec Ideal S1088x256 .bf16 := truncf .bf16 (w1 : FVec Ideal S1088x256 .f32) bitsLt_bf16_f32
abbrev W2 : FVec Ideal S256x256 .bf16 := truncf .bf16 (w2 : FVec Ideal S256x256 .f32) bitsLt_bf16_f32
abbrev W3 : FVec Ideal S256x128 .bf16 := truncf .bf16 (w3 : FVec Ideal S256x128 .f32) bitsLt_bf16_f32
abbrev W4 : FVec Ideal S128x1 .bf16 := truncf .bf16 (w4 : FVec Ideal S128x1 .f32) bitsLt_bf16_f32
abbrev B1 : FVec Ideal S1x256 .f32 := shapeCast S1x256 (b1 : FVec Ideal S256 .f32) shapeCasts_S256_S1x256
abbrev B2 : FVec Ideal S1x256 .f32 := shapeCast S1x256 (b2 : FVec Ideal S256 .f32) shapeCasts_S256_S1x256
abbrev B3 : FVec Ideal S1x128 .f32 := shapeCast S1x128 (b3 : FVec Ideal S128 .f32) shapeCasts_S128_S1x128
abbrev B4 : FVec Ideal S1x1 .f32 := shapeCast S1x1 (b4 : FVec Ideal S1 .f32) shapeCasts_S1_S1x1

variable {f x0}

theorem pay2_rows (h0 : IsRows t h x0 (flat f)) : IsRows t h (k0_pay2 (F := Ideal) x0) (flat f) := by
  unfold k0_pay2
  dsimp only
  rw [shapeCast_self]
  exact h0

/-- The second layer before its rectifier, from the block's rows. -/
theorem pay4_rows (h0 : IsRows t h x0 (flat f)) :
    IsRows t h (k0_pay4 (F := Ideal) x0 (W1 w1) (B1 b1) (W2 w2) (B2 b2))
      (Cert.Spec.pre2 (Cert.Spec.lrelu256 (Cert.Spec.pre1 f w1 b1)) w2 b2) := by
  unfold k0_pay4 Cert.Spec.pre2 Cert.Spec.pre1 Cert.Spec.lrelu256
  dsimp only
  simp only [shapeCast_self]
  refine affine (φ₁ := .f32) (IsRows.truncf _ (IsRows.lrelu (affine (pay2_rows h0) (fun _ _ => rfl) b1 _ _ _ _) _ _ _)) (fun _ _ => rfl) b2 _ _ _ _

/-- Entry (p, g·64 + d) of the flattened features is entry (p, g, d) of the looked-up rows. -/
theorem flat_apply (f : Cert.Spec.Arr Ideal Cert.ReferenceIdeal.S131072x17x64 .f32) (p : Fin 131072) (g : Fin 17) (d : Fin 64)
    (j : Fin 1088) (hj : j.val = g.val * 64 + d.val) : flat f (ix2 p j) = f (ix3 p g d) :=
  shapeCast_apply f _ (ix2 p j) (ix3 p g d) (by
    rw [Shape.rowMajor_val_three, Shape.rowMajor_val_two]
    show (p.val * 17 + g.val) * 64 + d.val = p.val * 1088 + j.val
    omega)

/-- The pairwise-interaction column of the block is rows 2048 t … of the reference's. -/
theorem pay3_rows (h0 : IsRows t h x0 (flat f)) {x2 : FVec Ideal S1088x64 .bf16}
    (hg : ∀ (j : Fin 1088) (d : Fin 64), x2 (ix2 j d) = if j.val % 64 = d.val then (1 : EReal) else 0) :
    IsRows t h (k0_pay3 (F := Ideal) x0 x2) (Cert.Spec.fm f) := by
  have hx : ∀ (p : Fin 2048) (g : Fin 17) (d : Fin 64) (j : Fin 1088), j.val = g.val * 64 + d.val →
      k0_pay2 (F := Ideal) x0 (ix2 p j) = f (ix3 (row t h p) g d) :=
    fun p g d j hj => (pay2_rows h0 p j).trans (flat_apply f _ g d j hj)
  have hx2 : ∀ (p : Fin 2048) (g : Fin 17) (d : Fin 64) (j : Fin 1088), j.val = g.val * 64 + d.val →
      mulf (k0_pay2 (F := Ideal) x0) (k0_pay2 (F := Ideal) x0) (ix2 p j)
        = mulf (f : FVec Ideal Cert.ReferenceIdeal.S131072x17x64 .f32) f (ix3 (row t h p) g d) :=
    fun p g d j hj => congrArg₂ (· * ·) (hx p g d j hj) (hx p g d j hj)
  unfold k0_pay3 Cert.Spec.fm
  dsimp only
  simp only [shapeCast_self]
  have hs := IsRows.groupSum (t := t) (h := h) (G := 17) (D := 64) rfl hx hg
    Cert.ReferenceIdeal.Facts₀.reducesTo_S131072x17x64_S131072x64_d1 Cert.ReferenceIdeal.Facts₀.h_S_
  have hq := IsRows.groupSum (t := t) (h := h) (G := 17) (D := 64) rfl hx2 hg
    Cert.ReferenceIdeal.Facts₀.reducesTo_S131072x17x64_S131072x64_d1 Cert.ReferenceIdeal.Facts₀.h_S_
  exact IsRows.mulf (IsRows.const (φ := .f32) _ _)
    (IsRows.rowSumKeepdims (IsRows.subf (IsRows.mulf hs hs) hq) _ _ _ _ _ _ _)

/-- The last two layers and the sum of the three columns. -/
theorem pay1_rows (h0 : IsRows t h x0 (flat f)) {x1 v12 : FVec Ideal S2048x1 .f32}
    {bc fmc : Cert.Spec.Arr Ideal Cert.ReferenceIdeal.S131072x1 .f32} (h1 : IsRows t h x1 bc) (h12 : IsRows t h v12 fmc) :
    IsRows t h
      (k0_pay1 (F := Ideal) v12 (k0_pay4 (F := Ideal) x0 (W1 w1) (B1 b1) (W2 w2) (B2 b2)) (k0_pay5 (F := Ideal) x0 (W1 w1) (B1 b1) (W2 w2) (B2 b2))
        (k0_pay6 (F := Ideal) x0 (W1 w1) (B1 b1) (W2 w2) (B2 b2)) (W3 w3) (B3 b3) (W4 w4) (B4 b4) x1)
      (addf (addf (Cert.Spec.mlp f w1 b1 w2 b2 w3 b3 w4 b4) bc) fmc) := by
  unfold k0_pay1 k0_pay5 k0_pay6 Cert.Spec.mlp Cert.Spec.pre4 Cert.Spec.pre3 Cert.Spec.lrelu128
  dsimp only
  simp only [shapeCast_self]
  refine IsRows.addf (IsRows.addf
    (affine (φ₁ := .f32) (IsRows.truncf _ (IsRows.lrelu
      (affine (φ₁ := .f32) (IsRows.truncf _ (IsRows.lrelu (pay4_rows w1 b1 w2 b2 h0) _ _ _)) (fun _ _ => rfl) b3 _ _ _ _)
      _ _ _)) (fun _ _ => rfl) b4 _ _ _ _) h1) h12

variable (f)

/-- ONE GRID POINT'S BLOCK of the kernel's result is rows 2048 t … 2048 t + 2047 of the reference's value:
    (four layers + bias column) + pairwise-interaction column. -/
theorem block_rows (bc : Cert.Spec.Arr Ideal Cert.ReferenceIdeal.S131072x1 .f32)
    {x0 : FVec Ideal S2048x1088 .bf16} {x1 : FVec Ideal S2048x1 .f32} {x2 : FVec Ideal S1088x64 .bf16}
    (h0 : IsRows t h x0 (flat f)) (h1 : IsRows t h x1 bc)
    (hg : ∀ (j : Fin 1088) (d : Fin 64), x2 (ix2 j d) = if j.val % 64 = d.val then (1 : EReal) else 0) :
    IsRows t h
      (k0_pay1 (F := Ideal) (k0_pay3 (F := Ideal) x0 x2) (k0_pay4 (F := Ideal) x0 (W1 w1) (B1 b1) (W2 w2) (B2 b2)) (k0_pay5 (F := Ideal) x0 (W1 w1) (B1 b1) (W2 w2) (B2 b2))
        (k0_pay6 (F := Ideal) x0 (W1 w1) (B1 b1) (W2 w2) (B2 b2)) (W3 w3) (B3 b3) (W4 w4) (B4 b4) x1)
      (addf (addf (Cert.Spec.mlp f w1 b1 w2 b2 w3 b3 w4 b4) bc) (Cert.Spec.fm f)) :=
  pay1_rows w1 b1 w2 b2 w3 b3 w4 b4 h0 h1 (pay3_rows h0 hg)

end Layers

end Cert.Bridge

end
-- ==== Proof.KFinal.lean ====
/-
  From blocks to the array. The launch walks 64 grid points; point t works on rows 2048 t … 2048 t + 2047 and writes
  its 2048 results back into the same rows of the result column [131072, 1]. Each point's block of results is the
  matching 2048 rows of the value the reference computes from the eleven arguments (the four layers on the looked-up
  features, plus the summed looked-up biases, plus the pairwise-interaction score), because the point's operand blocks
  are its rows of the flattened features and of the bias column together with the whole weight, bias and grouping
  arrays. Row r lies in the block of point r div 2048 and every point writes back, so the 64 blocks cover the column:
  after the run the result array is that value, and the arguments are as launched.
-/
import proofs.«178218_j58016418234670_1_alg».proof.Proof.KBlocks
import proofs.«178218_j58016418234670_1_alg».proof.Proof.KHost
import proofs.«178218_j58016418234670_1_alg».proof.Proof.KChain
import proofs.«178218_j58016418234670_1_alg».proof.Proof.Gen.ReferenceIdeal
import proofs.«178218_j58016418234670_1_alg».proof.Proof.Spec
import proofs.«178218_j58016418234670_1_alg».proof.Proof.LibRowBlock
import Idealize.ShloMosaic.Lib.Pipeline.Value
import Idealize.ShloMosaic.Lib.Tactic

noncomputable section

open Idealize.ShloMosaic Idealize.ShloMosaic.TcCoe Idealize.SL.Sem Idealize.ShloMosaic.ValueIdx Idealize.ShloMosaic.RowBlock
open Idealize.ShloMosaic.Pipeline (Dat)

namespace Cert.KernelIdeal.Hand

open Cert.KernelIdeal Cert.KernelIdeal.Gen

variable (m : (ℓ : Loc nD τ sig) → Buf (Elt Ideal) ℓ)

/-- The value the reference computes from the eleven argument arrays, as the result array's contents. -/
abbrev G (c : Dev nD) : S131072x1.Idx → Elt Ideal .f32 :=
  Cert.Spec.out (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- An index of the result array is in grid point t's block iff each coordinate is in the block's range on its axis. -/
theorem mem_result_block (t : Fin cfg0.N) (i : S131072x1.Idx) :
    i ∈ ((cfg0.win 11).blk t).view.set ↔ ∀ a : Fin 2, win0_11.index t a * S2048x1.size a ≤ (i a).val
      ∧ (i a).val < win0_11.index t a * S2048x1.size a + S2048x1.size a := by
  show i ∈ ((View.whole main_v44).slice (win0_11.rect t)).set ↔ _
  rw [View.set_slice_whole, Rect.mem_set_unit]
  exact Iff.rfl

/-- Every row r of the result array lies in the block of grid point r div 2048, and every point writes its block back. -/
theorem result_cover (i : S131072x1.Idx) :
    ∃ t : Fin cfg0.N, (cfg0.win 11).flush t = true ∧ i ∈ ((cfg0.win 11).blk t).view.set := by
  have hi0 : (i 0).val < 131072 := (i 0).isLt
  have hi1 : (i 1).val < 1 := (i 1).isLt
  have hN : cfg0.N = 64 := N_0
  obtain ⟨t, ht⟩ : ∃ t : Fin cfg0.N, t.val = (i 0).val / 2048 := ⟨⟨(i 0).val / 2048, by omega⟩, rfl⟩
  obtain ⟨-, -, -, -, -, -, -, -, -, -, -, e0, e1⟩ := idx_facts t
  refine ⟨t, flush0_11 t, ?_⟩
  rw [mem_result_block]
  intro a
  match a with
  | ⟨0, _⟩ =>
    show win0_11.index t (0 : Fin 2) * 2048 ≤ (i 0).val ∧ (i 0).val < win0_11.index t (0 : Fin 2) * 2048 + 2048
    rw [e0, ht]; omega
  | ⟨1, _⟩ =>
    show win0_11.index t (1 : Fin 2) * 1 ≤ (i 1).val ∧ (i 1).val < win0_11.index t (1 : Fin 2) * 1 + 1
    rw [e1]; omega

/-- The flattened features with their format narrowed, as the launch finds them, are the reference's flattening: on the
    extended reals a change of format is the identity. -/
theorem flat_narrowed (f : Cert.Spec.Arr Ideal Cert.ReferenceIdeal.S131072x17x64 .f32) (k : S131072x1088.Idx) :
    (shapeCast S131072x1088 (truncf (F := Ideal) .bf16 (f : FVec Ideal S131072x17x64 .f32) bitsLt_bf16_f32 : FVec Ideal S131072x17x64 .bf16)
      shapeCasts_S131072x17x64_S131072x1088 : FVec Ideal S131072x1088 .bf16) k = Cert.Bridge.flat f k := rfl

/-- One grid point's block of the result, for any operand blocks that are the point's 2048 rows of the flattened
    features, its rows of the bias column, and the grouping matrix: entry y of the body's value is the reference's value
    at the array index the block puts y at (row 2048 t + y₀, column y₁). -/
theorem block_eq (c : Dev nD) (t : Fin cfg0.N)
    {x0 : FVec Ideal S2048x1088 .bf16} {x1 : FVec Ideal S2048x1 .f32} {x2 : FVec Ideal S1088x64 .bf16}
    (h0 : IsRows t.val (rows_le t) x0 (Cert.Bridge.flat (Cert.Spec.feats (F := Ideal) (m ((c : Thread nD τ).loc main_arg0)) (m ((c : Thread nD τ).loc main_arg1)))))
    (h1 : IsRows t.val (rows_le t) x1 (Cert.Spec.biasCol (F := Ideal) (m ((c : Thread nD τ).loc main_arg0)) (m ((c : Thread nD τ).loc main_arg2))))
    (hg : ∀ (j : Fin 1088) (d : Fin 64), x2 (ix2 j d) = if j.val % 64 = d.val then (1 : EReal) else 0)
    (y : S2048x1.Idx) :
    k0_pay1 (F := Ideal) (k0_pay3 (F := Ideal) x0 x2)
        (k0_pay4 (F := Ideal) x0 (Cert.Bridge.W1 (m ((c : Thread nD τ).loc main_arg3))) (Cert.Bridge.B1 (m ((c : Thread nD τ).loc main_arg4))) (Cert.Bridge.W2 (m ((c : Thread nD τ).loc main_arg5))) (Cert.Bridge.B2 (m ((c : Thread nD τ).loc main_arg6))))
        (k0_pay5 (F := Ideal) x0 (Cert.Bridge.W1 (m ((c : Thread nD τ).loc main_arg3))) (Cert.Bridge.B1 (m ((c : Thread nD τ).loc main_arg4))) (Cert.Bridge.W2 (m ((c : Thread nD τ).loc main_arg5))) (Cert.Bridge.B2 (m ((c : Thread nD τ).loc main_arg6))))
        (k0_pay6 (F := Ideal) x0 (Cert.Bridge.W1 (m ((c : Thread nD τ).loc main_arg3))) (Cert.Bridge.B1 (m ((c : Thread nD τ).loc main_arg4))) (Cert.Bridge.W2 (m ((c : Thread nD τ).loc main_arg5))) (Cert.Bridge.B2 (m ((c : Thread nD τ).loc main_arg6))))
        (Cert.Bridge.W3 (m ((c : Thread nD τ).loc main_arg7))) (Cert.Bridge.B3 (m ((c : Thread nD τ).loc main_arg8))) (Cert.Bridge.W4 (m ((c : Thread nD τ).loc main_arg9))) (Cert.Bridge.B4 (m ((c : Thread nD τ).loc main_arg10))) x1 y
      = G m c (((cfg0.win 11).blk t).view.emb y) := by
  obtain ⟨p, q, rfl⟩ : ∃ (p : Fin 2048) (q : Fin 1), y = ix2 p q := ⟨y 0, y 1, eq_ix2 y⟩
  obtain ⟨-, -, -, -, -, -, -, -, -, -, -, e0, e1⟩ := idx_facts t
  have hemb : ((cfg0.win 11).blk t).view.emb (ix2 p q) = ix2 (row t.val (rows_le t) p) q := by
    funext a
    apply Fin.ext
    match a with
    | ⟨0, _⟩ => show win0_11.index t (0 : Fin 2) * 2048 + 1 * p.val = t.val * 2048 + p.val; rw [e0]; omega
    | ⟨1, _⟩ => show win0_11.index t (1 : Fin 2) * 1 + 1 * q.val = q.val; rw [e1]; omega
  rw [hemb]
  exact Cert.Bridge.block_rows _ _ _ _ _ _ _ _ _ _ h0 h1 hg p q

/-- WHAT GRID POINT t WRITES BACK is block t of the reference's value: the point's operand blocks are its rows of the
    flattened features and of the bias column, and the whole weight, bias and grouping arrays. -/
theorem flushed_eq (c : Dev nD) (t : Fin cfg0.N) :
    (dats m 0 c).flushed 11 t = ((cfg0.win 11).blk t).view.read (Elt Ideal) (G m c) := by
  have h0 : IsRows t.val (rows_le t) (iblk m c 0 t : Vec Ideal S2048x1088 .bf16)
      (Cert.Bridge.flat (Cert.Spec.feats (F := Ideal) (m ((c : Thread nD τ).loc main_arg0)) (m ((c : Thread nD τ).loc main_arg1)))) := fun p j =>
    (iblk0_apply m c t (ix2 p j) (ix2 (row t.val (rows_le t) p) j) rfl rfl).trans
      ((congrFun (V16_eq m c) _).trans (flat_narrowed _ _))
  have h1 : IsRows t.val (rows_le t) (iblk m c 1 t : Vec Ideal S2048x1 .f32)
      (Cert.Spec.biasCol (F := Ideal) (m ((c : Thread nD τ).loc main_arg0)) (m ((c : Thread nD τ).loc main_arg2))) := fun p q =>
    (iblk1_apply m c t (ix2 p q) (ix2 (row t.val (rows_le t) p) q) rfl rfl).trans (congrFun (V26_eq m c) _)
  rw [Value.flushed11]
  unfold out0_11
  rw [View.canon_unit_zero hz]
  simp only [View.ld_unit_zero (S := S2048x1088) hz, View.ld_unit_zero (S := S2048x1) hz, View.ld_unit_zero (S := S1088x64) hz,
    View.ld_unit_zero (S := S1088x256) hz, View.ld_unit_zero (S := S1x256) hz, View.ld_unit_zero (S := S256x256) hz,
    View.ld_unit_zero (S := S256x128) hz, View.ld_unit_zero (S := S1x128) hz, View.ld_unit_zero (S := S128x1) hz,
    View.ld_unit_zero (S := S1x1) hz]
  rw [iblk2_eq m c t, iblk3_eq m c t, iblk4_eq m c t, iblk5_eq m c t, iblk6_eq m c t, iblk7_eq m c t, iblk8_eq m c t,
    iblk9_eq m c t, iblk10_eq m c t, V36_eq m c, V37_eq m c, V38_eq m c, V39_eq m c, V40_eq m c, V41_eq m c, V42_eq m c,
    V43_eq m c]
  funext y
  rw [View.read_apply]
  exact block_eq m c t h0 h1 (V35_apply m c) y

/-- After the launch the result array holds the reference's value: every grid point writes back the matching 2048 rows
    of it, and the 64 blocks cover the array. -/
theorem final (c : Dev nD) : (dats m 0 c).arrAt 11 cfg0.N = G m c :=
  (dats m 0 c).arrAt_eq_of_cover 11 (G m c) (fun t _ => flushed_eq m c t) result_cover

/-- The program's run, read: the result array at the reference's value of the arguments, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v44) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Hand

end
-- ==== Proof.RefRun.lean ====
/-
  The reference program's entry function as ONE straight line of host operations, and its run.

  The entry function is stated in two consecutive parts and calls the leaky-rectifier function three times; that function, in
  turn, calls the elementwise selection. A call executes the callee's body on the operands, each value of the body in a
  buffer of the call's own record. Written out at each call site — a zero constant, its broadcast, the comparison
  "operand ≥ 0", the slope passed through a change of format that is the identity, its broadcast, the product
  "slope · operand", and the selection between the operand and that product — the program is the 92 operations below, in
  program order. Every weakly fair execution of it terminates, and each buffer then holds the fold of these operations
  over the contents the launch found.
-/
import proofs.«178218_j58016418234670_1_alg».proof.Proof.Gen.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

/-- No buffer of the signature is scoped. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

variable {F : FTy → Type} [FloatOps F] [Facts]

/-- The entry function's operations in program order, the three calls written out. Operations 1–55: the table
    look-ups, the pairwise-interaction score, the first layer's product and bias, and the slope constant. 56–62: the
    first call, on the first layer's output. 63–67: the second layer and its slope constant. 68–74: the second call.
    75–79: the third layer and its slope constant. 80–86: the third call (the function's 128-wide instance).
    87–90: the last layer. 91–92: the two closing sums. -/
abbrev ops : List (HloOp τ sig (Elt F)) :=
  [ nullary main_c (fun i => lit0 (S17.rowMajor i)),
    nullary main_c_0 (fun i => lit1 (S17.rowMajor i)),
    nullary main_c_1 (constantI S_ 32 0#32),
    unary main_c_1 main_v0 (broadcastInDim S17 ![] bcast_S_S17 : (⟨S_, .i32⟩ : BufTy).Contents (Elt F) → (⟨S17, .i32⟩ : BufTy).Contents (Elt F)),
    binary main_c main_v0 main_v1 (cmpi .slt : (⟨S17, .i32⟩ : BufTy).Contents (Elt F) → (⟨S17, .i32⟩ : BufTy).Contents (Elt F) → (⟨S17, .i1⟩ : BufTy).Contents (Elt F)),
    nullary main_c_2 (constantI S_ 32 18#32),
    unary main_c_2 main_v2 (broadcastInDim S17 ![] bcast_S_S17 : (⟨S_, .i32⟩ : BufTy).Contents (Elt F) → (⟨S17, .i32⟩ : BufTy).Contents (Elt F)),
    binary main_c main_v2 main_v3 (addi : (⟨S17, .i32⟩ : BufTy).Contents (Elt F) → (⟨S17, .i32⟩ : BufTy).Contents (Elt F) → (⟨S17, .i32⟩ : BufTy).Contents (Elt F)),
    ternary main_v1 main_v3 main_c main_v4 (select : (⟨S17, .i1⟩ : BufTy).Contents (Elt F) → (⟨S17, .i32⟩ : BufTy).Contents (Elt F) → (⟨S17, .i32⟩ : BufTy).Contents (Elt F) → (⟨S17, .i32⟩ : BufTy).Contents (Elt F)),
    unary main_v4 main_v5 (broadcastInDim S17x1 ![0] bcast_S17_S17x1_0 : (⟨S17, .i32⟩ : BufTy).Contents (Elt F) → (⟨S17x1, .i32⟩ : BufTy).Contents (Elt F)),
    binary main_arg0 main_v5 main_v6 ((fun x i => Host.gather gather_S131072x18_S17x1_S131072x17_0_1_n_n_1_1_1310721 x i) : (⟨S131072x18, .i32⟩ : BufTy).Contents (Elt F) → (⟨S17x1, .i32⟩ : BufTy).Contents (Elt F) → (⟨S131072x17, .i32⟩ : BufTy).Contents (Elt F)),
    unary main_c_0 main_v7 (broadcastInDim S1x17 ![1] bcast_S17_S1x17_1 : (⟨S17, .i32⟩ : BufTy).Contents (Elt F) → (⟨S1x17, .i32⟩ : BufTy).Contents (Elt F)),
    unary main_v7 main_v8 (broadcastInDim S131072x17 ![0, 1] bcast_S1x17_S131072x17_0_1 : (⟨S1x17, .i32⟩ : BufTy).Contents (Elt F) → (⟨S131072x17, .i32⟩ : BufTy).Contents (Elt F)),
    binary main_v6 main_v8 main_v9 (addi : (⟨S131072x17, .i32⟩ : BufTy).Contents (Elt F) → (⟨S131072x17, .i32⟩ : BufTy).Contents (Elt F) → (⟨S131072x17, .i32⟩ : BufTy).Contents (Elt F)),
    nullary main_c_3 (constantI S_ 32 0#32),
    unary main_c_3 main_v10 (broadcastInDim S131072x17 ![] bcast_S_S131072x17 : (⟨S_, .i32⟩ : BufTy).Contents (Elt F) → (⟨S131072x17, .i32⟩ : BufTy).Contents (Elt F)),
    binary main_v9 main_v10 main_v11 (cmpi .slt : (⟨S131072x17, .i32⟩ : BufTy).Contents (Elt F) → (⟨S131072x17, .i32⟩ : BufTy).Contents (Elt F) → (⟨S131072x17, .i1⟩ : BufTy).Contents (Elt F)),
    nullary main_c_4 (constantI S_ 32 153902#32),
    unary main_c_4 main_v12 (broadcastInDim S131072x17 ![] bcast_S_S131072x17 : (⟨S_, .i32⟩ : BufTy).Contents (Elt F) → (⟨S131072x17, .i32⟩ : BufTy).Contents (Elt F)),
    binary main_v9 main_v12 main_v13 (addi : (⟨S131072x17, .i32⟩ : BufTy).Contents (Elt F) → (⟨S131072x17, .i32⟩ : BufTy).Contents (Elt F) → (⟨S131072x17, .i32⟩ : BufTy).Contents (Elt F)),
    ternary main_v11 main_v13 main_v9 main_v14 (select : (⟨S131072x17, .i1⟩ : BufTy).Contents (Elt F) → (⟨S131072x17, .i32⟩ : BufTy).Contents (Elt F) → (⟨S131072x17, .i32⟩ : BufTy).Contents (Elt F) → (⟨S131072x17, .i32⟩ : BufTy).Contents (Elt F)),
    unary main_v14 main_v15 (broadcastInDim S131072x17x1 ![0, 1] bcast_S131072x17_S131072x17x1_0_1 : (⟨S131072x17, .i32⟩ : BufTy).Contents (Elt F) → (⟨S131072x17x1, .i32⟩ : BufTy).Contents (Elt F)),
    binary main_arg1 main_v15 main_v16 ((fun x i => Host.gather gather_S153902x64_S131072x17x1_S131072x17x64_2_0_n_n_0_2_164 x i) : (⟨S153902x64, .f32⟩ : BufTy).Contents (Elt F) → (⟨S131072x17x1, .i32⟩ : BufTy).Contents (Elt F) → (⟨S131072x17x64, .f32⟩ : BufTy).Contents (Elt F)),
    nullary main_c_5 (constantI S_ 32 0#32),
    unary main_c_5 main_v17 (broadcastInDim S131072x17 ![] bcast_S_S131072x17 : (⟨S_, .i32⟩ : BufTy).Contents (Elt F) → (⟨S131072x17, .i32⟩ : BufTy).Contents (Elt F)),
    binary main_v9 main_v17 main_v18 (cmpi .slt : (⟨S131072x17, .i32⟩ : BufTy).Contents (Elt F) → (⟨S131072x17, .i32⟩ : BufTy).Contents (Elt F) → (⟨S131072x17, .i1⟩ : BufTy).Contents (Elt F)),
    nullary main_c_6 (constantI S_ 32 153902#32),
    unary main_c_6 main_v19 (broadcastInDim S131072x17 ![] bcast_S_S131072x17 : (⟨S_, .i32⟩ : BufTy).Contents (Elt F) → (⟨S131072x17, .i32⟩ : BufTy).Contents (Elt F)),
    binary main_v9 main_v19 main_v20 (addi : (⟨S131072x17, .i32⟩ : BufTy).Contents (Elt F) → (⟨S131072x17, .i32⟩ : BufTy).Contents (Elt F) → (⟨S131072x17, .i32⟩ : BufTy).Contents (Elt F)),
    ternary main_v18 main_v20 main_v9 main_v21 (select : (⟨S131072x17, .i1⟩ : BufTy).Contents (Elt F) → (⟨S131072x17, .i32⟩ : BufTy).Contents (Elt F) → (⟨S131072x17, .i32⟩ : BufTy).Contents (Elt F) → (⟨S131072x17, .i32⟩ : BufTy).Contents (Elt F)),
    unary main_v21 main_v22 (broadcastInDim S131072x17x1 ![0, 1] bcast_S131072x17_S131072x17x1_0_1 : (⟨S131072x17, .i32⟩ : BufTy).Contents (Elt F) → (⟨S131072x17x1, .i32⟩ : BufTy).Contents (Elt F)),
    binary main_arg2 main_v22 main_v23 ((fun x i => Host.gather gather_S153902x1_S131072x17x1_S131072x17x1_2_0_n_n_0_2_11 x i) : (⟨S153902x1, .f32⟩ : BufTy).Contents (Elt F) → (⟨S131072x17x1, .i32⟩ : BufTy).Contents (Elt F) → (⟨S131072x17x1, .f32⟩ : BufTy).Contents (Elt F)),
    reshape main_v23 main_v24 rfl shapeCasts_S131072x17x1_S131072x17,
    nullary main_cst (constant S_ .f32 0x00000000#32),
    binary main_v24 main_cst main_v25 ((fun x v => Host.reduceAdd x v reducesTo_S131072x17_S131072_d1 h_S_) : (⟨S131072x17, .f32⟩ : BufTy).Contents (Elt F) → (⟨S_, .f32⟩ : BufTy).Contents (Elt F) → (⟨S131072, .f32⟩ : BufTy).Contents (Elt F)),
    unary main_v25 main_v26 (broadcastInDim S131072x1 ![0] bcast_S131072_S131072x1_0 : (⟨S131072, .f32⟩ : BufTy).Contents (Elt F) → (⟨S131072x1, .f32⟩ : BufTy).Contents (Elt F)),
    nullary main_cst_7 (constant S_ .f32 0x00000000#32),
    binary main_v16 main_cst_7 main_v27 ((fun x v => Host.reduceAdd x v reducesTo_S131072x17x64_S131072x64_d1 h_S_) : (⟨S131072x17x64, .f32⟩ : BufTy).Contents (Elt F) → (⟨S_, .f32⟩ : BufTy).Contents (Elt F) → (⟨S131072x64, .f32⟩ : BufTy).Contents (Elt F)),
    binary main_v16 main_v16 main_v28 (mulf : (⟨S131072x17x64, .f32⟩ : BufTy).Contents (Elt F) → (⟨S131072x17x64, .f32⟩ : BufTy).Contents (Elt F) → (⟨S131072x17x64, .f32⟩ : BufTy).Contents (Elt F)),
    nullary main_cst_8 (constant S_ .f32 0x00000000#32),
    binary main_v28 main_cst_8 main_v29 ((fun x v => Host.reduceAdd x v reducesTo_S131072x17x64_S131072x64_d1 h_S_) : (⟨S131072x17x64, .f32⟩ : BufTy).Contents (Elt F) → (⟨S_, .f32⟩ : BufTy).Contents (Elt F) → (⟨S131072x64, .f32⟩ : BufTy).Contents (Elt F)),
    binary main_v27 main_v27 main_v30 (mulf : (⟨S131072x64, .f32⟩ : BufTy).Contents (Elt F) → (⟨S131072x64, .f32⟩ : BufTy).Contents (Elt F) → (⟨S131072x64, .f32⟩ : BufTy).Contents (Elt F)),
    binary main_v30 main_v29 main_v31 (subf : (⟨S131072x64, .f32⟩ : BufTy).Contents (Elt F) → (⟨S131072x64, .f32⟩ : BufTy).Contents (Elt F) → (⟨S131072x64, .f32⟩ : BufTy).Contents (Elt F)),
    nullary main_cst_9 (constant S_ .f32 0x00000000#32),
    binary main_v31 main_cst_9 main_v32 ((fun x v => Host.reduceAdd x v reducesTo_S131072x64_S131072_d1 h_S_) : (⟨S131072x64, .f32⟩ : BufTy).Contents (Elt F) → (⟨S_, .f32⟩ : BufTy).Contents (Elt F) → (⟨S131072, .f32⟩ : BufTy).Contents (Elt F)),
    unary main_v32 main_v33 (broadcastInDim S131072x1 ![0] bcast_S131072_S131072x1_0 : (⟨S131072, .f32⟩ : BufTy).Contents (Elt F) → (⟨S131072x1, .f32⟩ : BufTy).Contents (Elt F)),
    nullary main_cst_10 (constant S_ .f32 0x3F000000#32),
    unary main_cst_10 main_v34 (broadcastInDim S131072x1 ![] bcast_S_S131072x1 : (⟨S_, .f32⟩ : BufTy).Contents (Elt F) → (⟨S131072x1, .f32⟩ : BufTy).Contents (Elt F)),
    binary main_v34 main_v33 main_v35 (mulf : (⟨S131072x1, .f32⟩ : BufTy).Contents (Elt F) → (⟨S131072x1, .f32⟩ : BufTy).Contents (Elt F) → (⟨S131072x1, .f32⟩ : BufTy).Contents (Elt F)),
    reshape main_v16 main_v36 rfl shapeCasts_S131072x17x64_S131072x1088,
    binary main_v36 main_arg3 main_v37 ((fun l r => Host.dotGeneral dot_S131072x1088_S1088x256_S131072x256_1_0_0_1_n_n none l r) : (⟨S131072x1088, .f32⟩ : BufTy).Contents (Elt F) → (⟨S1088x256, .f32⟩ : BufTy).Contents (Elt F) → (⟨S131072x256, .f32⟩ : BufTy).Contents (Elt F)),
    unary main_arg4 main_v38 (broadcastInDim S1x256 ![1] bcast_S256_S1x256_1 : (⟨S256, .f32⟩ : BufTy).Contents (Elt F) → (⟨S1x256, .f32⟩ : BufTy).Contents (Elt F)),
    unary main_v38 main_v39 (broadcastInDim S131072x256 ![0, 1] bcast_S1x256_S131072x256_0_1 : (⟨S1x256, .f32⟩ : BufTy).Contents (Elt F) → (⟨S131072x256, .f32⟩ : BufTy).Contents (Elt F)),
    binary main_v37 main_v39 main_v40 (addf : (⟨S131072x256, .f32⟩ : BufTy).Contents (Elt F) → (⟨S131072x256, .f32⟩ : BufTy).Contents (Elt F) → (⟨S131072x256, .f32⟩ : BufTy).Contents (Elt F)),
    nullary main_cst_11 (constant S_ .f32 0x3C23D70A#32),
    TRef.nullary main_call0.cst (constant S_ .f32 0x00000000#32),
    TRef.unary main_call0.cst main_call0.v0 (broadcastInDim S131072x256 ![] bcast_S_S131072x256),
    TRef.binary (.of main_v40 : TRef sig ⟨S131072x256, .f32⟩) main_call0.v0 main_call0.v1 (cmpf .oge),
    TRef.unary (.of main_cst_11 : TRef sig ⟨S_, .f32⟩) main_call0.v2 id,
    TRef.unary main_call0.v2 main_call0.v3 (broadcastInDim S131072x256 ![] bcast_S_S131072x256),
    TRef.binary main_call0.v3 (.of main_v40 : TRef sig ⟨S131072x256, .f32⟩) main_call0.v4 mulf,
    TRef.ternary main_call0.v1 (.of main_v40 : TRef sig ⟨S131072x256, .f32⟩) main_call0.v4 main_call0.call0.v0 select,
    binary main_v41 main_arg5 main_v42 ((fun l r => Host.dotGeneral dot_S131072x256_S256x256_S131072x256_1_0_0_1_n_n none l r) : (⟨S131072x256, .f32⟩ : BufTy).Contents (Elt F) → (⟨S256x256, .f32⟩ : BufTy).Contents (Elt F) → (⟨S131072x256, .f32⟩ : BufTy).Contents (Elt F)),
    unary main_arg6 main_v43 (broadcastInDim S1x256 ![1] bcast_S256_S1x256_1 : (⟨S256, .f32⟩ : BufTy).Contents (Elt F) → (⟨S1x256, .f32⟩ : BufTy).Contents (Elt F)),
    unary main_v43 main_v44 (broadcastInDim S131072x256 ![0, 1] bcast_S1x256_S131072x256_0_1 : (⟨S1x256, .f32⟩ : BufTy).Contents (Elt F) → (⟨S131072x256, .f32⟩ : BufTy).Contents (Elt F)),
    binary main_v42 main_v44 main_v45 (addf : (⟨S131072x256, .f32⟩ : BufTy).Contents (Elt F) → (⟨S131072x256, .f32⟩ : BufTy).Contents (Elt F) → (⟨S131072x256, .f32⟩ : BufTy).Contents (Elt F)),
    nullary main_cst_12 (constant S_ .f32 0x3C23D70A#32),
    TRef.nullary main_call1.cst (constant S_ .f32 0x00000000#32),
    TRef.unary main_call1.cst main_call1.v0 (broadcastInDim S131072x256 ![] bcast_S_S131072x256),
    TRef.binary (.of main_v45 : TRef sig ⟨S131072x256, .f32⟩) main_call1.v0 main_call1.v1 (cmpf .oge),
    TRef.unary (.of main_cst_12 : TRef sig ⟨S_, .f32⟩) main_call1.v2 id,
    TRef.unary main_call1.v2 main_call1.v3 (broadcastInDim S131072x256 ![] bcast_S_S131072x256),
    TRef.binary main_call1.v3 (.of main_v45 : TRef sig ⟨S131072x256, .f32⟩) main_call1.v4 mulf,
    TRef.ternary main_call1.v1 (.of main_v45 : TRef sig ⟨S131072x256, .f32⟩) main_call1.v4 main_call1.call0.v0 select,
    binary main_v46 main_arg7 main_v47 ((fun l r => Host.dotGeneral dot_S131072x256_S256x128_S131072x128_1_0_0_1_n_n none l r) : (⟨S131072x256, .f32⟩ : BufTy).Contents (Elt F) → (⟨S256x128, .f32⟩ : BufTy).Contents (Elt F) → (⟨S131072x128, .f32⟩ : BufTy).Contents (Elt F)),
    unary main_arg8 main_v48 (broadcastInDim S1x128 ![1] bcast_S128_S1x128_1 : (⟨S128, .f32⟩ : BufTy).Contents (Elt F) → (⟨S1x128, .f32⟩ : BufTy).Contents (Elt F)),
    unary main_v48 main_v49 (broadcastInDim S131072x128 ![0, 1] bcast_S1x128_S131072x128_0_1 : (⟨S1x128, .f32⟩ : BufTy).Contents (Elt F) → (⟨S131072x128, .f32⟩ : BufTy).Contents (Elt F)),
    binary main_v47 main_v49 main_v50 (addf : (⟨S131072x128, .f32⟩ : BufTy).Contents (Elt F) → (⟨S131072x128, .f32⟩ : BufTy).Contents (Elt F) → (⟨S131072x128, .f32⟩ : BufTy).Contents (Elt F)),
    nullary main_cst_13 (constant S_ .f32 0x3C23D70A#32),
    TRef.nullary main_call2.cst (constant S_ .f32 0x00000000#32),
    TRef.unary main_call2.cst main_call2.v0 (broadcastInDim S131072x128 ![] bcast_S_S131072x128),
    TRef.binary (.of main_v50 : TRef sig ⟨S131072x128, .f32⟩) main_call2.v0 main_call2.v1 (cmpf .oge),
    TRef.unary (.of main_cst_13 : TRef sig ⟨S_, .f32⟩) main_call2.v2 id,
    TRef.unary main_call2.v2 main_call2.v3 (broadcastInDim S131072x128 ![] bcast_S_S131072x128),
    TRef.binary main_call2.v3 (.of main_v50 : TRef sig ⟨S131072x128, .f32⟩) main_call2.v4 mulf,
    TRef.ternary main_call2.v1 (.of main_v50 : TRef sig ⟨S131072x128, .f32⟩) main_call2.v4 main_call2.call0.v0 select,
    binary main_v51 main_arg9 main_v52 ((fun l r => Host.dotGeneral dot_S131072x128_S128x1_S131072x1_1_0_0_1_n_n none l r) : (⟨S131072x128, .f32⟩ : BufTy).Contents (Elt F) → (⟨S128x1, .f32⟩ : BufTy).Contents (Elt F) → (⟨S131072x1, .f32⟩ : BufTy).Contents (Elt F)),
    unary main_arg10 main_v53 (broadcastInDim S1x1 ![1] bcast_S1_S1x1_1 : (⟨S1, .f32⟩ : BufTy).Contents (Elt F) → (⟨S1x1, .f32⟩ : BufTy).Contents (Elt F)),
    unary main_v53 main_v54 (broadcastInDim S131072x1 ![0, 1] bcast_S1x1_S131072x1_0_1 : (⟨S1x1, .f32⟩ : BufTy).Contents (Elt F) → (⟨S131072x1, .f32⟩ : BufTy).Contents (Elt F)),
    binary main_v52 main_v54 main_v55 (addf : (⟨S131072x1, .f32⟩ : BufTy).Contents (Elt F) → (⟨S131072x1, .f32⟩ : BufTy).Contents (Elt F) → (⟨S131072x1, .f32⟩ : BufTy).Contents (Elt F)),
    binary main_v55 main_v26 main_v56 (addf : (⟨S131072x1, .f32⟩ : BufTy).Contents (Elt F) → (⟨S131072x1, .f32⟩ : BufTy).Contents (Elt F) → (⟨S131072x1, .f32⟩ : BufTy).Contents (Elt F)),
    binary main_v56 main_v35 main_v57 (addf : (⟨S131072x1, .f32⟩ : BufTy).Contents (Elt F) → (⟨S131072x1, .f32⟩ : BufTy).Contents (Elt F) → (⟨S131072x1, .f32⟩ : BufTy).Contents (Elt F)) ]

set_option maxRecDepth 8192 in
set_option maxHeartbeats 4000000 in
/-- The entry function is that straight line: the two parts, the called functions and the calls' records unfolded, both
    sides are one chain of single steps once sequencing is re-associated. -/
theorem main_eq (c : Dev nD) : main (F := F) c = seq ops := by
  simp only [main, main_part0, main_part1, fn_leaky_relu.body, fn_leaky_relu_0.body, fn_where.body, fn_where_1.body, seq,
    bind_assoc, pure_bind]

/-- Every operation touches TensorCore buffers only. -/
theorem ops_sub : (ops : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., reshape_bufs_sub .., nullary_bufs_sub .., binary_bufs_sub .., unary_bufs_sub ..,
    nullary_bufs_sub .., binary_bufs_sub .., binary_bufs_sub .., nullary_bufs_sub .., binary_bufs_sub .., binary_bufs_sub ..,
    binary_bufs_sub .., nullary_bufs_sub .., binary_bufs_sub .., unary_bufs_sub .., nullary_bufs_sub .., unary_bufs_sub ..,
    binary_bufs_sub .., reshape_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    binary_bufs_sub .., binary_bufs_sub ..⟩

/-- At the compiled mesh, for any float values, from any memory with zero counters: every weakly fair execution of the
    entry function on the TensorCores terminates, and every final state has each TensorCore buffer at the operations'
    fold over the contents the launch found. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefOut.lean ====
/-
  What the reference program leaves in memory, read off its straight line of operations.

  The fold of the ninety-two operations at the result buffer is the staged value of Spec.lean applied to the contents of
  the eleven argument buffers: each operation's result is its function of the buffers it reads, a buffer no operation
  writes keeps its contents, and the staged value was written with the same whole-array operations in the same order, so
  the two terms are the same term. The operations of a called function move contents between "contents of the buffer" and
  "contents at the value's type" along an equation of types that is the identity at these literal buffers. No argument
  buffer is written by any operation, so each ends as it began.
-/
import proofs.«178218_j58016418234670_1_alg».proof.Proof.RefRun
import proofs.«178218_j58016418234670_1_alg».proof.Proof.Spec

noncomputable section

namespace Cert.ReferenceIdeal.RefRun

open Cert.ReferenceIdeal Cert.ReferenceIdeal.Facts₀ Idealize.ShloMosaic Idealize.ShloMosaic.TcCoe Idealize.SL.Sem
  Idealize.ShloMosaic.StableHlo

variable {F : FTy → Type} [FloatOps F] [Facts]

attribute [local irreducible] Host.gather Host.reduceAdd in
set_option maxRecDepth 16384 in
set_option maxHeartbeats 4000000 in
/-- The fold at the result buffer is the staged value of the argument buffers' contents. The gathers and the sums over an
    axis occur in both terms only as whole applications to equal arguments, so the equality does not depend on what they
    compute. -/
theorem out_eq (V : Valuation τ sig (Elt F)) :
    after ops V (main_v57 : DevRef τ sig)
      = Cert.Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp
  rfl

set_option maxRecDepth 16384 in
set_option maxHeartbeats 4000000 in
/-- No operation writes this argument buffer. -/
theorem arg0_eq (V : Valuation τ sig (Elt F)) :
    after ops V (main_arg0 : DevRef τ sig) = V (main_arg0 : DevRef τ sig) := by
  after_results_simp

set_option maxRecDepth 16384 in
set_option maxHeartbeats 4000000 in
/-- No operation writes this argument buffer. -/
theorem arg1_eq (V : Valuation τ sig (Elt F)) :
    after ops V (main_arg1 : DevRef τ sig) = V (main_arg1 : DevRef τ sig) := by
  after_results_simp

set_option maxRecDepth 16384 in
set_option maxHeartbeats 4000000 in
/-- No operation writes this argument buffer. -/
theorem arg2_eq (V : Valuation τ sig (Elt F)) :
    after ops V (main_arg2 : DevRef τ sig) = V (main_arg2 : DevRef τ sig) := by
  after_results_simp

set_option maxRecDepth 16384 in
set_option maxHeartbeats 4000000 in
/-- No operation writes this argument buffer. -/
theorem arg3_eq (V : Valuation τ sig (Elt F)) :
    after ops V (main_arg3 : DevRef τ sig) = V (main_arg3 : DevRef τ sig) := by
  after_results_simp

set_option maxRecDepth 16384 in
set_option maxHeartbeats 4000000 in
/-- No operation writes this argument buffer. -/
theorem arg4_eq (V : Valuation τ sig (Elt F)) :
    after ops V (main_arg4 : DevRef τ sig) = V (main_arg4 : DevRef τ sig) := by
  after_results_simp

set_option maxRecDepth 16384 in
set_option maxHeartbeats 4000000 in
/-- No operation writes this argument buffer. -/
theorem arg5_eq (V : Valuation τ sig (Elt F)) :
    after ops V (main_arg5 : DevRef τ sig) = V (main_arg5 : DevRef τ sig) := by
  after_results_simp

set_option maxRecDepth 16384 in
set_option maxHeartbeats 4000000 in
/-- No operation writes this argument buffer. -/
theorem arg6_eq (V : Valuation τ sig (Elt F)) :
    after ops V (main_arg6 : DevRef τ sig) = V (main_arg6 : DevRef τ sig) := by
  after_results_simp

set_option maxRecDepth 16384 in
set_option maxHeartbeats 4000000 in
/-- No operation writes this argument buffer. -/
theorem arg7_eq (V : Valuation τ sig (Elt F)) :
    after ops V (main_arg7 : DevRef τ sig) = V (main_arg7 : DevRef τ sig) := by
  after_results_simp

set_option maxRecDepth 16384 in
set_option maxHeartbeats 4000000 in
/-- No operation writes this argument buffer. -/
theorem arg8_eq (V : Valuation τ sig (Elt F)) :
    after ops V (main_arg8 : DevRef τ sig) = V (main_arg8 : DevRef τ sig) := by
  after_results_simp

set_option maxRecDepth 16384 in
set_option maxHeartbeats 4000000 in
/-- No operation writes this argument buffer. -/
theorem arg9_eq (V : Valuation τ sig (Elt F)) :
    after ops V (main_arg9 : DevRef τ sig) = V (main_arg9 : DevRef τ sig) := by
  after_results_simp

set_option maxRecDepth 16384 in
set_option maxHeartbeats 4000000 in
/-- No operation writes this argument buffer. -/
theorem arg10_eq (V : Valuation τ sig (Elt F)) :
    after ops V (main_arg10 : DevRef τ sig) = V (main_arg10 : DevRef τ sig) := by
  after_results_simp

/-- At the compiled mesh, for any float values, from any memory with zero counters: every weakly fair execution of the
    reference program terminates; the result buffer then holds the staged value of the argument buffers' launch
    contents, and every argument buffer holds what it held. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57)
        = Cert.Spec.out (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v57).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.RefRun

end
-- ==== Proof.lean ====
/-
  The kernel and its reference compute, for each of 131072 samples, a score from seventeen looked-up embedding rows:
  a four-layer perceptron on the 1088 looked-up numbers (leaky rectifier between layers), plus the sum of seventeen
  looked-up bias entries, plus the pairwise-interaction term 1/2 · Σ_d ((Σ_g e_{g,d})² − Σ_g e_{g,d}²).

  The two programs look the rows up with the same host operations. They differ in two ways. The kernel processes the
  samples 2048 at a time (64 grid points), each operation of its body acting on every row by itself, so a block of its
  result is the matching 2048 rows of what the whole-array operations give (Cert.Bridge.block_rows); and it forms
  Σ_g e_{g,d} and Σ_g e_{g,d}² as products of the flattened rows with a constant 1088 × 64 matrix of ones and zeros
  (entry (j, d) is 1 exactly when j mod 64 = d), which on the extended reals is the same sum, since x · 0 = 0 and
  x · 1 = x for every x, infinite ones included. Changes of float format are the identity on the extended reals. So
  the two results are equal for EVERY input; the precondition is not used.

  The reference's run is the fold of its 92 host operations (its three calls of the leaky rectifier inlined), whose
  value at the result buffer is the stage-by-stage term Cert.Spec.out of the arguments; the kernel's run ends with
  its result array at the same term (Cert.KernelIdeal.Hand.run: every block is the matching rows, and the 64 blocks
  cover the array). The kernel's idealization rewrote nothing, so the fourth conjunct is trivial; the two kernel
  frames are the generated ones and the reference's frame is its run with the result dropped.
-/
import proofs.«178218_j58016418234670_1_alg».proof.Defs
import proofs.«178218_j58016418234670_1_alg».proof.Proof.Gen.Kernel
import proofs.«178218_j58016418234670_1_alg».proof.Proof.Gen.Kernel.Skeleton
import proofs.«178218_j58016418234670_1_alg».proof.Proof.Gen.Kernel.Launch
import proofs.«178218_j58016418234670_1_alg».proof.Proof.Gen.Kernel.Points
import proofs.«178218_j58016418234670_1_alg».proof.Proof.Gen.Kernel.Frame
import proofs.«178218_j58016418234670_1_alg».proof.Proof.Gen.KernelIdeal
import proofs.«178218_j58016418234670_1_alg».proof.Proof.Gen.KernelIdeal.Skeleton
import proofs.«178218_j58016418234670_1_alg».proof.Proof.Gen.KernelIdeal.Launch
import proofs.«178218_j58016418234670_1_alg».proof.Proof.Gen.KernelIdeal.Points
import proofs.«178218_j58016418234670_1_alg».proof.Proof.Gen.KernelIdeal.Frame
import proofs.«178218_j58016418234670_1_alg».proof.Proof.Gen.KernelIdeal.Value
import proofs.«178218_j58016418234670_1_alg».proof.Proof.Gen.ReferenceIdeal
import proofs.«178218_j58016418234670_1_alg».proof.Proof.Gen.Pre_finite_inputs
import proofs.«178218_j58016418234670_1_alg».proof.Proof.KFinal
import proofs.«178218_j58016418234670_1_alg».proof.Proof.RefOut
import Idealize.ShloMosaic.Adequacy
import Idealize.ShloMosaic.Init

noncomputable section

namespace Cert.Proof

open Idealize.ShloMosaic Idealize.SL.Sem

/-- The word-level kernel terminates, faults nowhere, and leaves its arguments as they were. -/
theorem frame_kernel : Cert.frame_Kernel := fun m ρ _ => Cert.Kernel.Gen.frame m ρ

/-- The same for the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both runs end with the result array at the same function of arguments that agree. -/
theorem algebraic : Cert.algebraic_KernelIdeal_ReferenceIdeal := by
  intro m ρ m' ρ' _ hagree
  refine ⟨fun c => Cert.KernelIdeal.Hand.G m c, Cert.KernelIdeal.Hand.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10⟩ := hagree c
  rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
